-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S2x1600000 : Shape := ⟨2, ![2, 1600000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S128x40 .f32) (main_arg5 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg4
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x512 .f32) (main_arg1 : FVec F S1600000 .f32) (main_arg2 : FVec F S512x128 .f32) (main_arg3 : FVec F S128 .f32) (main_arg4 : FVec F S128x40 .f32) (main_arg5 : FVec F S40 .f32) (main_arg6 : IVec S2x1600000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x512 : Shape := ⟨2, ![50000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S2x1600000 : Shape := ⟨2, ![2, 1600000]⟩
abbrev S50000x128 : Shape := ⟨2, ![50000, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S50000x40 : Shape := ⟨2, ![50000, 40]⟩
abbrev S1600000x40 : Shape := ⟨2, ![1600000, 40]⟩
abbrev S5000x512 : Shape := ⟨2, ![5000, 512]⟩
abbrev S5000x128 : Shape := ⟨2, ![5000, 128]⟩
abbrev S5000x40 : Shape := ⟨2, ![5000, 40]⟩
abbrev S1x128 : Shape := ⟨2, ![1, 128]⟩
abbrev S1x40 : Shape := ⟨2, ![1, 40]⟩
abbrev S5000 : Shape := ⟨1, ![5000]⟩
abbrev S5000x1 : Shape := ⟨2, ![5000, 1]⟩

abbrev nBuf : Space → Nat
  | .hbm => 52
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S1600000, .f32⟩
  | .hbm, ⟨2, _⟩ => ⟨S512x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S2x1600000, .i32⟩
  | .hbm, ⟨7, _⟩ => ⟨S512x128, .bf16⟩
  | .hbm, ⟨8, _⟩ => ⟨S128x40, .bf16⟩
  | .hbm, ⟨9, _⟩ => ⟨S50000x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x1, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S50000x128, .f32⟩
  | .hbm, ⟨28, _⟩ => ⟨S1600000x1, .i32⟩
  | .hbm, ⟨29, _⟩ => ⟨S50000x128, .f32⟩
  | .hbm, ⟨30, _⟩ => ⟨S50000x40, .f32⟩
  | .hbm, ⟨31, _⟩ => ⟨S1x1600000, .i32⟩
  | .hbm, ⟨32, _⟩ => ⟨S1600000, .i32⟩
  | .hbm, ⟨33, _⟩ => ⟨S1x1600000, .i32⟩
  | .hbm, ⟨34, _⟩ => ⟨S1600000, .i32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x40, .f32⟩
  | .hbm, ⟨44, _⟩ => ⟨S1600000x1, .f32⟩
  | .hbm, ⟨45, _⟩ => ⟨S1600000x40, .f32⟩
  | .hbm, ⟨46, _⟩ => ⟨S1600000x40, .f32⟩
  | .hbm, ⟨47, _⟩ => ⟨S_, .f32⟩
  | .hbm, ⟨48, _⟩ => ⟨S50000x40, .f32⟩
  | .hbm, ⟨49, _⟩ => ⟨S1600000x1, .i32⟩
  | .hbm, ⟨50, _⟩ => ⟨S50000x40, .f32⟩
  | .hbm, ⟨51, _⟩ => ⟨S50000x40, .f32⟩
  | .local _ .vmem, ⟨0, _⟩ => ⟨S5000x512, .f32⟩
  | .local _ .vmem, ⟨1, _⟩ => ⟨S5000x512, .f32⟩
  | .local _ .vmem, ⟨2, _⟩ => ⟨S512x128, .bf16⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x40, .bf16⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S40, .f32⟩
  | .local _ .vmem, ⟨14, _⟩ => ⟨S5000x40, .f32⟩
  | .local _ .vmem, ⟨15, _⟩ => ⟨S5000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_c : Ref sig .tc := ⟨.hbm, 14, rfl⟩
abbrev main_call0_v7 : Ref sig .tc := ⟨.hbm, 15, rfl⟩
abbrev main_call0_v8 : Ref sig .tc := ⟨.hbm, 16, rfl⟩
abbrev main_call0_c_0 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_cst : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_c_1 : Ref sig .tc := ⟨.hbm, 35, rfl⟩
abbrev main_call0_v25 : Ref sig .tc := ⟨.hbm, 36, rfl⟩
abbrev main_call0_v26 : Ref sig .tc := ⟨.hbm, 37, rfl⟩
abbrev main_call0_c_2 : Ref sig .tc := ⟨.hbm, 38, rfl⟩
abbrev main_call0_v27 : Ref sig .tc := ⟨.hbm, 39, rfl⟩
abbrev main_call0_v28 : Ref sig .tc := ⟨.hbm, 40, rfl⟩
abbrev main_call0_v29 : Ref sig .tc := ⟨.hbm, 41, rfl⟩
abbrev main_call0_v30 : Ref sig .tc := ⟨.hbm, 42, rfl⟩
abbrev main_call0_v31 : Ref sig .tc := ⟨.hbm, 43, rfl⟩
abbrev main_call0_v32 : Ref sig .tc := ⟨.hbm, 44, rfl⟩
abbrev main_call0_v33 : Ref sig .tc := ⟨.hbm, 45, rfl⟩
abbrev main_call0_v34 : Ref sig .tc := ⟨.hbm, 46, rfl⟩
abbrev main_call0_cst_3 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_v0 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bitsLt_bf16_f32 : FTy.bits .bf16 < FTy.bits .f32
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S1600000x1_S1600000x40_0_1 : S1600000x1.BroadcastsInDim S1600000x40 (![0, 1] : Fin 2 → Fin S1600000x40.rank)
  bcast_S_S50000x40 : S_.BroadcastsInDim S50000x40 (![] : Fin 0 → Fin S50000x40.rank)
  inb_S5000x512_S5000x512_0_0 : ∀ a, (![0, 0] : Fin 2 → Nat) a + S5000x512.size a ≤ S5000x512.size a
  h_S5000x512 : 0 < S5000x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  gather_S50000x40_S1600000x1_S1600000x40_1_0_n_n_0_1_140_wf : GatherDims.WF S50000x40 S1600000x1 S1600000x40 [1] [0] [] [0] [] 1 ![1, 40]
  scatter_S50000x40_S1600000x1_S1600000x40_1_0_0_1_wf : ScatterDims.WF S50000x40 S1600000x1 S1600000x40 [1] [0] [0] 1
  dot_S5000x512_S512x128_S5000x128_1_0_0_1_n_n_wf : DotDims.WF S5000x512 S512x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .bf16 = 32 ∨ (Rect.block (s := S128x40) S128x40.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S50000x40.size a
  hwx1_3 : ∀ i : grid1.Coords, EltTy.bits .f32 = 32 ∨ (Rect.block (s := S50000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S50000x40.size a
  hwx2_0 : ∀ i : grid2.Coords, EltTy.bits .f32 = 32 ∨ (Rect.block (s := S50000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S40.size a ≤ S40.size a
  hwx2_1 : ∀ i : grid2.Coords, EltTy.bits .f32 = 32 ∨ (Rect.block (s := S40) S40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def gather_S50000x40_S1600000x1_S1600000x40_1_0_n_n_0_1_140 : GatherDims S50000x40 S1600000x1 S1600000x40 where
  offsetDims := [1]
  collapsedSliceDims := [0]
  operandBatchingDims := []
  startIndicesBatchingDims := []
  startIndexMap := [0]
  indexVectorDim := 1
  sliceSizes := ![1, 40]
  wf := gather_S50000x40_S1600000x1_S1600000x40_1_0_n_n_0_1_140_wf
def scatter_S50000x40_S1600000x1_S1600000x40_1_0_0_1 : ScatterDims S50000x40 S1600000x1 S1600000x40 where
  updateWindowDims := [1]
  insertedWindowDims := [0]
  scatterDimsToOperandDims := [0]
  indexVectorDim := 1
  wf := scatter_S50000x40_S1600000x1_S1600000x40_1_0_0_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v20) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v37) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S2x1600000 : Shape := ⟨2, ![2, 1600000]⟩
abbrev S50000x128 : Shape := ⟨2, ![50000, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S50000x40 : Shape := ⟨2, ![50000, 40]⟩
abbrev S1600000x40 : Shape := ⟨2, ![1600000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 73
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S1600000, .f32⟩
  | .hbm, ⟨2, _⟩ => ⟨S512x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S2x1600000, .i32⟩
  | .hbm, ⟨7, _⟩ => ⟨S50000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x1, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S50000x128, .f32⟩
  | .hbm, ⟨26, _⟩ => ⟨S1600000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x40, .f32⟩
  | .hbm, ⟨35, _⟩ => ⟨S1x1600000, .i32⟩
  | .hbm, ⟨36, _⟩ => ⟨S1600000, .i32⟩
  | .hbm, ⟨37, _⟩ => ⟨S1x1600000, .i32⟩
  | .hbm, ⟨38, _⟩ => ⟨S1600000, .i32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x40, .f32⟩
  | .hbm, ⟨48, _⟩ => ⟨S1600000x1, .f32⟩
  | .hbm, ⟨49, _⟩ => ⟨S1600000x40, .f32⟩
  | .hbm, ⟨50, _⟩ => ⟨S1600000x40, .f32⟩
  | .hbm, ⟨51, _⟩ => ⟨S_, .f32⟩
  | .hbm, ⟨52, _⟩ => ⟨S50000x40, .f32⟩
  | .hbm, ⟨53, _⟩ => ⟨S1600000x1, .i32⟩
  | .hbm, ⟨54, _⟩ => ⟨S50000x40, .f32⟩
  | .hbm, ⟨55, _⟩ => ⟨S1x40, .f32⟩
  | .hbm, ⟨56, _⟩ => ⟨S50000x40, .f32⟩
  | .hbm, ⟨57, _⟩ => ⟨S50000x40, .f32⟩
  | .hbm, ⟨58, _⟩ => ⟨S_, .f32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x40, .f32⟩
  | .hbm, ⟨65, _⟩ => ⟨S50000x40, .f32⟩
  | .hbm, ⟨66, _⟩ => ⟨S50000x40, .f32⟩
  | .hbm, ⟨67, _⟩ => ⟨S_, .f32⟩
  | .hbm, ⟨68, _⟩ => ⟨S50000, .f32⟩
  | .hbm, ⟨69, _⟩ => ⟨S50000x1, .f32⟩
  | .hbm, ⟨70, _⟩ => ⟨S50000x1, .f32⟩
  | .hbm, ⟨71, _⟩ => ⟨S50000x40, .f32⟩
  | .hbm, ⟨72, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_1 : Ref sig .tc := ⟨.hbm, 39, rfl⟩
abbrev main_v27 : Ref sig .tc := ⟨.hbm, 40, rfl⟩
abbrev main_v28 : Ref sig .tc := ⟨.hbm, 41, rfl⟩
abbrev main_c_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_cst : Ref sig .tc := ⟨.hbm, 58, rfl⟩
abbrev main_call1_v0 : Ref sig .tc := ⟨.hbm, 59, rfl⟩
abbrev main_call1_cst_0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_cst_1 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_v43 : Ref sig .tc := ⟨.hbm, 72, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1600000x1_S1600000x40_0_1 : S1600000x1.BroadcastsInDim S1600000x40 (![0, 1] : Fin 2 → Fin S1600000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x512_S512x128_S50000x128_1_0_0_1_n_n_wf : DotDims.WF S50000x512 S512x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x40_S50000x40_1_0_0_1_n_n_wf : DotDims.WF S50000x128 S128x40 S50000x40 [1] [0] [0] [1] [] []
  gather_S50000x40_S1600000x1_S1600000x40_1_0_n_n_0_1_140_wf : GatherDims.WF S50000x40 S1600000x1 S1600000x40 [1] [0] [] [0] [] 1 ![1, 40]
  scatter_S50000x40_S1600000x1_S1600000x40_1_0_0_1_wf : ScatterDims.WF S50000x40 S1600000x1 S1600000x40 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S1600000x1_S1600000x40_1_0_n_n_0_1_140 : GatherDims S50000x40 S1600000x1 S1600000x40 where
  offsetDims := [1]
  collapsedSliceDims := [0]
  operandBatchingDims := []
  startIndicesBatchingDims := []
  startIndexMap := [0]
  indexVectorDim := 1
  sliceSizes := ![1, 40]
  wf := gather_S50000x40_S1600000x1_S1600000x40_1_0_n_n_0_1_140_wf
def scatter_S50000x40_S1600000x1_S1600000x40_1_0_0_1 : ScatterDims S50000x40 S1600000x1 S1600000x40 where
  updateWindowDims := [1]
  insertedWindowDims := [0]
  scatterDimsToOperandDims := [0]
  indexVectorDim := 1
  wf := scatter_S50000x40_S1600000x1_S1600000x40_1_0_0_1_wf

class Facts : Prop extends Facts₀ where

variable [Facts]
-- ==== Proof.Spec.lean ====
/-
  The two-layer graph convolution as one function of its arguments, on the extended reals.

  For node features X, weights W1, W2, biases b1, b2 and a sparse aggregation A (a gather of rows, a scaling by edge
  weights and a scatter-add, applied to a whole matrix), the network computes

      log_softmax ( A₂ ( relu ( A₁ (X · W1) + b1 ) · W2 ) + b2 ),

  the log-softmax taken along each row: with z = x − max over the row, the entry is z − log Σ exp z. The aggregations
  enter as parameters: both programs apply the same one, and nothing here looks inside it.
-/
import Idealize.ShloMosaic.Lib.ValueIdx
import Idealize.ShloMosaic.PureOps.Ideal

noncomputable section

namespace Cert.GcnSpec

open Idealize.ShloMosaic Idealize.ShloMosaic.ValueIdx

/-- An M × N array of extended reals, and a length-N one. -/
abbrev Mat (M N : ℕ) : Type := (⟨2, ![M, N]⟩ : Shape).Idx → EReal
abbrev Row (N : ℕ) : Type := (⟨1, ![N]⟩ : Shape).Idx → EReal

/-- The row and the column of an index of an M × N array. -/
abbrev rowOf {M N : ℕ} (i : (⟨2, ![M, N]⟩ : Shape).Idx) : Fin M := ⟨(i 0).val, idx2_lt0 i⟩
abbrev colOf {M N : ℕ} (i : (⟨2, ![M, N]⟩ : Shape).Idx) : Fin N := ⟨(i 1).val, idx2_lt1 i⟩

theorem eq_row_col {M N : ℕ} (i : (⟨2, ![M, N]⟩ : Shape).Idx) : i = ix2 (rowOf i) (colOf i) :=
  funext fun a => Fin.ext (by match a with | ⟨0, _⟩ => rfl | ⟨1, _⟩ => rfl)

@[simp] theorem rowOf_ix2 {M N : ℕ} (p : Fin M) (q : Fin N) : rowOf (ix2 p q) = p := rfl
@[simp] theorem colOf_ix2 {M N : ℕ} (p : Fin M) (q : Fin N) : colOf (ix2 p q) = q := rfl

/-- The matrix product: entry (r, c) is Σₖ X[r, k] · W[k, c]. -/
def prod {M K N : ℕ} (X : Mat M K) (W : Mat K N) : Mat M N :=
  fun i => ∑ k : Fin K, X (ix2 (rowOf i) k) * W (ix2 k (colOf i))

/-- A bias added along the rows: entry (r, c) is H[r, c] + b[c]. -/
def addBias {M N : ℕ} (H : Mat M N) (b : Row N) : Mat M N :=
  fun i => H i + b (ix1 (colOf i))

/-- The rectifier after the bias: entry (r, c) is max (H[r, c] + b[c]) 0, the zero being the f32 zero word. -/
def biasRelu {M N : ℕ} (H : Mat M N) (b : Row N) : Mat M N :=
  fun i => max (H i + b (ix1 (colOf i))) (Ideal.ofBits .f32 0x00000000#32)

/-- The largest entry of row r, as the fold of max from the f32 word of −∞ over the row's columns. -/
def rowMax {M N : ℕ} (x : Mat M N) (r : Fin M) : EReal :=
  (Finset.univ : Finset (Fin N)).fold max (Ideal.ofBits .f32 0xFF800000#32) (fun k => x (ix2 r k))

/-- The log-softmax along each row: with z = x − rowMax, entry (r, c) is z[r, c] − log Σₖ exp z[r, k]. -/
def logSoftmax {M N : ℕ} (x : Mat M N) : Mat M N :=
  fun i => (x i - rowMax x (rowOf i))
    - Ideal.log (∑ k : Fin N, Ideal.exp (x (ix2 (rowOf i) k) - rowMax x (rowOf i)))

/-- The whole network, the two aggregations as parameters. -/
def gcn {Nn Fi Hd Cl : ℕ} (agg1 : Mat Nn Hd → Mat Nn Hd) (agg2 : Mat Nn Cl → Mat Nn Cl)
    (X : Mat Nn Fi) (W1 : Mat Fi Hd) (b1 : Row Hd) (W2 : Mat Hd Cl) (b2 : Row Cl) : Mat Nn Cl :=
  logSoftmax (addBias (agg2 (prod (biasRelu (agg1 (prod X W1)) b1) W2)) b2)

end Cert.GcnSpec

end
-- ==== Proof.KernelRun.lean ====
/-
  The idealized kernel's run with its result named.

  The program is three kernel launches among stretches of host operations. Its buffer contents at each boundary are a
  fold from the launch memory: a host stretch applies its operations, a launch replaces its windows' arrays by what
  its write-backs leave and keeps every other buffer. Every weakly fair execution ends with each buffer that lives
  for the whole run at the last boundary's contents; read at the result buffer this names the result, and read at the
  argument buffers it says they end as launched.
-/
import proofs.«115262_j27109833572875_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the seven argument arrays as launched. -/
theorem run_last : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.ValueRun

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.Region0.lean ====
/-
  The first launch: the product X · W1, computed in ten blocks of 5000 rows.

  At grid point t the body reads rows 5000·t … 5000·t + 4999 of X and the whole of W1 (rounded to bf16 on the host, which
  on the extended reals changes nothing), multiplies them into a zero accumulator, and writes the 5000 × 128 result back
  as rows 5000·t … of the output. Entry (p, q) of that block is Σₖ X[5000·t + p, k] · W1[k, q], which is entry
  (5000·t + p, q) of the whole product; the ten blocks tile the 50000 rows, so the output array ends as the product.
-/
import proofs.«115262_j27109833572875_2_alg».proof.Proof.Gen.KernelIdeal.Frame
import proofs.«115262_j27109833572875_2_alg».proof.Proof.Spec
import proofs.«115262_j27109833572875_2_alg».proof.Proof.LibPlainProduct
import Idealize.ShloMosaic.Lib.Pipeline.Value
import Idealize.ShloMosaic.Lib.ValueIdx

set_option maxRecDepth 16384

noncomputable section

namespace Cert.KernelIdeal.Region0

open Cert.KernelIdeal Cert.KernelIdeal.Gen Cert.GcnSpec
open Idealize.ShloMosaic Idealize.ShloMosaic.TcCoe Idealize.ShloMosaic.ValueIdx Idealize.SL.Sem
open Idealize.ShloMosaic.Pipeline (Dat Cfg Window)

/-- The dimension numbers of the body's product: lhs axis 1 against rhs axis 0. -/
abbrev D : DotDims S5000x512 S512x128 S5000x128 := dot_S5000x512_S512x128_S5000x128_1_0_0_1_n_n

theorem lhs0 (i : S5000x128.Idx) (q : D.contr.Idx) : (D.lhsIdx i q 0).val = (i 0).val := by
  unfold DotDims.lhsIdx
  rw [dif_neg (show ¬(0 : Fin S5000x512.rank) ∈ D.lhsBatch by decide), dif_pos (show (0 : Fin S5000x512.rank) ∈ D.lhsNonContracting by decide)]
  rfl
theorem lhs1 (i : S5000x128.Idx) (q : D.contr.Idx) : (D.lhsIdx i q 1).val = (q ⟨0, by decide⟩).val :=
  D.lhsIdx_val_of_single rfl i q
theorem rhs0 (i : S5000x128.Idx) (q : D.contr.Idx) : (D.rhsIdx i q 0).val = (q ⟨0, by decide⟩).val :=
  D.rhsIdx_val_of_single rfl i q
theorem rhs1 (i : S5000x128.Idx) (q : D.contr.Idx) : (D.rhsIdx i q 1).val = (i 1).val := by
  unfold DotDims.rhsIdx
  rw [dif_neg (show ¬(1 : Fin S512x128.rank) ∈ D.rhsBatch by decide), dif_pos (show (1 : Fin S512x128.rank) ∈ D.rhsNonContracting by decide)]
  rfl

/-- Entry (p, q) of what the body stores: Σₖ x0[p, k] · x1[k, q] of the two blocks it loaded. -/
theorem pay_entry (x0 : Vec Ideal S5000x512 .f32) (x1 : Vec Ideal S512x128 .bf16) (p : Fin 5000) (q : Fin 128) :
    k0_pay1 (F := Ideal) x0 x1 (ix2 p q) = ∑ k : Fin 512, x0 (ix2 p k) * x1 (ix2 k q) := by
  unfold k0_pay1
  refine (Cert.PlainProduct.matmul_zero_entry D rfl rfl lhs0 lhs1 rhs0 rhs1
    (truncf .bf16 x0 bitsLt_bf16_f32) (shapeCast S512x128 x1 shapeCasts_S512x128_S512x128) p q).trans ?_
  refine Finset.sum_congr rfl fun k _ => ?_
  rw [shapeCast_self]
  rfl

/-- The same entry as an entry of the whole product, when the loaded blocks are rows `base …` of X and the whole of W. -/
theorem pay_eq_prod (X : Mat 50000 512) (W : Mat 512 128) (x0 : Vec Ideal S5000x512 .f32) (x1 : Vec Ideal S512x128 .bf16)
    (base : ℕ) (j : S5000x128.Idx) (i : S50000x128.Idx)
    (hx0 : ∀ (y : S5000x512.Idx) (i' : S50000x512.Idx), (i' 0).val = base + (y 0).val → (i' 1).val = (y 1).val → x0 y = X i')
    (hx1 : ∀ (y : S512x128.Idx), x1 y = W y)
    (hi0 : (i 0).val = base + (j 0).val) (hi1 : (i 1).val = (j 1).val) :
    k0_pay1 (F := Ideal) x0 x1 j = prod X W i := by
  obtain ⟨p, q, rfl⟩ : ∃ (p : Fin 5000) (q : Fin 128), j = ix2 p q := ⟨j 0, j 1, eq_ix2 j⟩
  rw [pay_entry]
  unfold prod
  refine Finset.sum_congr rfl fun k _ => ?_
  rw [hx0 (ix2 p k) (ix2 (rowOf i) k) hi0 rfl, hx1]
  have hc : colOf i = q := Fin.ext hi1
  rw [hc]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten grid points: the X window and the output window move together along
    the rows, every other block index is zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem idx_onto : ∀ (q0 : Fin 10), ∃ t : Fin cfg0.N, win0_2.index t = ![q0.val, 0] :=
  (by decide +kernel : ∀ (q0 : Fin 10), ∃ t : Fin grid0.N, win0_2.index t = ![q0.val, 0])

/-- What point `t` writes back is block `t` of the product of the arrays as the launch finds them. -/
theorem flushed_eq (c : Dev nD) (t : Fin cfg0.N) :
    (dat0 V c).flushed 2 t = ((cfg0.win 2).blk t).view.read (Elt Ideal) (prod (V c main_arg0) (V c main_call0_v0)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x128) hz]
  obtain ⟨e0, e1, e2, e3, e4, e5⟩ := idx_facts t
  funext j
  show k0_pay1 (F := Ideal) (iblk0 V c 0 t) (iblk0 V c 1 t) j
    = prod (V c main_arg0) (V c main_call0_v0) (((cfg0.win 2).blk t).view.emb j)
  refine pay_eq_prod (V c main_arg0) (V c main_call0_v0) (iblk0 V c 0 t) (iblk0 V c 1 t)
    (win0_2.index t (0 : Fin 2) * 5000) j _ ?_ ?_ ?_ ?_
  · intro y i' h0 h1
    show V c main_arg0 (((cfg0.win 0).blk t).view.emb y) = V c main_arg0 i'
    refine congrArg _ (funext fun a => Fin.ext ?_)
    match a with
    | ⟨0, _⟩ => show win0_0.index t (0 : Fin 2) * 5000 + 1 * (y 0).val = (i' 0).val; omega
    | ⟨1, _⟩ => show win0_0.index t (1 : Fin 2) * 512 + 1 * (y 1).val = (i' 1).val; omega
  · intro y
    show V c main_call0_v0 (((cfg0.win 1).blk t).view.emb y) = V c main_call0_v0 y
    refine congrArg _ (funext fun a => Fin.ext ?_)
    match a with
    | ⟨0, _⟩ => show win0_1.index t (0 : Fin 2) * 512 + 1 * (y 0).val = (y 0).val; omega
    | ⟨1, _⟩ => show win0_1.index t (1 : Fin 2) * 128 + 1 * (y 1).val = (y 1).val; omega
  · show win0_2.index t (0 : Fin 2) * 5000 + 1 * (j 0).val = win0_2.index t (0 : Fin 2) * 5000 + (j 0).val; omega
  · show win0_2.index t (1 : Fin 2) * 128 + 1 * (j 1).val = (j 1).val; omega

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_call0_v2).slice (win0_2.rect t)).set ↔ _
  rw [View.set_slice_whole, Rect.mem_set_unit]
  exact Iff.rfl

/-- The ten row blocks tile the array: row r lies in block r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the launch is the product of the arrays as the launch finds them. -/
theorem final (c : Dev nD) : (dat0 V c).arrAt 2 cfg0.N = prod (V c main_arg0) (V c main_call0_v0) :=
  (dat0 V c).arrAt_eq_of_cover 2 _ (fun t _ => flushed_eq V c t) cover

end Cert.KernelIdeal.Region0

end
-- ==== Proof.Region1.lean ====
/-
  The second launch: relu (H + b1) · W2, computed in ten blocks of 5000 rows.

  At grid point t the body reads rows 5000·t … of H (the first aggregation's output), the whole bias b1 and the whole of
  W2 (rounded to bf16 on the host, which on the extended reals changes nothing). It adds the bias along the rows, takes
  the maximum with zero, and multiplies by W2 into a zero accumulator. Entry (p, q) of the block it writes back is
  Σₖ max (H[5000·t + p, k] + b1[k]) 0 · W2[k, q]: entry (5000·t + p, q) of the product of the rectified matrix with W2.
  The ten blocks tile the 50000 rows.
-/
import proofs.«115262_j27109833572875_2_alg».proof.Proof.Gen.KernelIdeal.Frame
import proofs.«115262_j27109833572875_2_alg».proof.Proof.Spec
import proofs.«115262_j27109833572875_2_alg».proof.Proof.LibPlainProduct
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Cert.GcnSpec
open Idealize.ShloMosaic Idealize.ShloMosaic.TcCoe Idealize.ShloMosaic.ValueIdx Idealize.SL.Sem
open Idealize.ShloMosaic.Pipeline (Dat Cfg Window)

/-- The dimension numbers of the body's product: lhs axis 1 against rhs axis 0. -/
abbrev D : DotDims S5000x128 S128x40 S5000x40 := dot_S5000x128_S128x40_S5000x40_1_0_0_1_n_n

theorem lhs0 (i : S5000x40.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs1 (i : S5000x40.Idx) (q : D.contr.Idx) : (D.lhsIdx i q 1).val = (q ⟨0, by decide⟩).val :=
  D.lhsIdx_val_of_single rfl i q
theorem rhs0 (i : S5000x40.Idx) (q : D.contr.Idx) : (D.rhsIdx i q 0).val = (q ⟨0, by decide⟩).val :=
  D.rhsIdx_val_of_single rfl i q
theorem rhs1 (i : S5000x40.Idx) (q : D.contr.Idx) : (D.rhsIdx i q 1).val = (i 1).val := by
  unfold DotDims.rhsIdx
  rw [dif_neg (show ¬(1 : Fin S128x40.rank) ∈ D.rhsBatch by decide), dif_pos (show (1 : Fin S128x40.rank) ∈ D.rhsNonContracting by decide)]
  rfl

/-- Entry (p, q) of what the body stores: Σₖ max (x0[p, k] + x1[k]) 0 · x2[k, q] of the three blocks it loaded. -/
theorem pay_entry (x0 : Vec Ideal S5000x128 .f32) (x1 : Vec Ideal S128 .f32) (x2 : Vec Ideal S128x40 .bf16) (p : Fin 5000) (q : Fin 40) :
    k1_pay1 (F := Ideal) x0 x1 x2 (ix2 p q)
      = ∑ k : Fin 128, max (x0 (ix2 p k) + x1 (ix1 k)) (Ideal.ofBits .f32 0x00000000#32) * x2 (ix2 k q) := by
  unfold k1_pay1
  refine (Cert.PlainProduct.matmul_zero_entry D rfl rfl lhs0 lhs1 rhs0 rhs1 _ _ p q).trans ?_
  refine Finset.sum_congr rfl fun k _ => ?_
  rw [shapeCast_self, shapeCast_self]
  show max (x0 (ix2 p k) + broadcastTo S5000x128 (shapeCast S1x128 x1 shapeCasts_S128_S1x128) broadcasts_S1x128_S5000x128 (ix2 p k))
      (Ideal.ofBits .f32 0x00000000#32) * x2 (ix2 k q) = _
  rw [broadcastTo_1b_ab_apply, shapeCast_a_1a_apply]

/-- The same entry as an entry of the rectified matrix times W, when the loaded blocks are rows `base …` of H, the whole
    bias and the whole of W. -/
theorem pay_eq_prod (H : Mat 50000 128) (b : Row 128) (W : Mat 128 40)
    (x0 : Vec Ideal S5000x128 .f32) (x1 : Vec Ideal S128 .f32) (x2 : Vec Ideal S128x40 .bf16)
    (base : ℕ) (j : S5000x40.Idx) (i : S50000x40.Idx)
    (hx0 : ∀ (y : S5000x128.Idx) (i' : S50000x128.Idx), (i' 0).val = base + (y 0).val → (i' 1).val = (y 1).val → x0 y = H i')
    (hx1 : ∀ (y : S128.Idx), x1 y = b y)
    (hx2 : ∀ (y : S128x40.Idx), x2 y = W y)
    (hi0 : (i 0).val = base + (j 0).val) (hi1 : (i 1).val = (j 1).val) :
    k1_pay1 (F := Ideal) x0 x1 x2 j = prod (biasRelu H b) W i := by
  obtain ⟨p, q, rfl⟩ : ∃ (p : Fin 5000) (q : Fin 40), j = ix2 p q := ⟨j 0, j 1, eq_ix2 j⟩
  rw [pay_entry]
  unfold prod biasRelu
  refine Finset.sum_congr rfl fun k _ => ?_
  rw [hx0 (ix2 p k) (ix2 (rowOf i) k) hi0 rfl, hx1, hx2]
  have hc : colOf i = q := Fin.ext hi1
  rw [hc]

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps, decided over the ten grid points: the H window and the output window move together along
    the rows, every other block index is zero. -/
theorem idx_facts : ∀ t : Fin cfg1.N, win1_0.index t (0 : Fin 2) = win1_3.index t (0 : Fin 2)
    ∧ win1_0.index t (1 : Fin 2) = 0
    ∧ win1_1.index t (0 : Fin 1) = 0
    ∧ win1_2.index t (0 : Fin 2) = 0
    ∧ win1_2.index t (1 : Fin 2) = 0
    ∧ win1_3.index t (1 : Fin 2) = 0
    ∧ win1_3.index t (0 : Fin 2) ≤ 9 :=
  (by decide +kernel : ∀ t : Fin grid1.N, _)

/-- Every row block is some point's. -/
theorem idx_onto : ∀ (q0 : Fin 10), ∃ t : Fin cfg1.N, win1_3.index t = ![q0.val, 0] :=
  (by decide +kernel : ∀ (q0 : Fin 10), ∃ t : Fin grid1.N, win1_3.index t = ![q0.val, 0])

/-- What point `t` writes back is block `t` of the rectified matrix times W2, of the arrays as the launch finds them. -/
theorem flushed_eq (c : Dev nD) (t : Fin cfg1.N) :
    (dat1 V c).flushed 3 t = ((cfg1.win 3).blk t).view.read (Elt Ideal)
      (prod (biasRelu (V c main_call0_v19) (V c main_arg3)) (V c main_call0_v1)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128) hz1, View.ld_unit_zero (S := S128x40) hz]
  obtain ⟨e0, e1, e2, e3, e4, e5, e6⟩ := idx_facts t
  funext j
  show k1_pay1 (F := Ideal) (iblk1 V c 0 t) (iblk1 V c 1 t) (iblk1 V c 2 t) j
    = prod (biasRelu (V c main_call0_v19) (V c main_arg3)) (V c main_call0_v1) (((cfg1.win 3).blk t).view.emb j)
  refine pay_eq_prod (V c main_call0_v19) (V c main_arg3) (V c main_call0_v1) (iblk1 V c 0 t) (iblk1 V c 1 t) (iblk1 V c 2 t)
    (win1_3.index t (0 : Fin 2) * 5000) j _ ?_ ?_ ?_ ?_ ?_
  · intro y i' h0 h1
    show V c main_call0_v19 (((cfg1.win 0).blk t).view.emb y) = V c main_call0_v19 i'
    refine congrArg _ (funext fun a => Fin.ext ?_)
    match a with
    | ⟨0, _⟩ => show win1_0.index t (0 : Fin 2) * 5000 + 1 * (y 0).val = (i' 0).val; omega
    | ⟨1, _⟩ => show win1_0.index t (1 : Fin 2) * 128 + 1 * (y 1).val = (i' 1).val; omega
  · intro y
    show V c main_arg3 (((cfg1.win 1).blk t).view.emb y) = V c main_arg3 y
    refine congrArg _ (funext fun a => Fin.ext ?_)
    match a with
    | ⟨0, _⟩ => show win1_1.index t (0 : Fin 1) * 128 + 1 * (y 0).val = (y 0).val; omega
  · intro y
    show V c main_call0_v1 (((cfg1.win 2).blk t).view.emb y) = V c main_call0_v1 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 40 + 1 * (y 1).val = (y 1).val; omega
  · show win1_3.index t (0 : Fin 2) * 5000 + 1 * (j 0).val = win1_3.index t (0 : Fin 2) * 5000 + (j 0).val; omega
  · show win1_3.index t (1 : Fin 2) * 40 + 1 * (j 1).val = (j 1).val; omega

/-- An index of the output array is in point `t`'s block iff each coordinate is in the block's range on its axis. -/
theorem mem_blk (t : Fin cfg1.N) (i : S50000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_call0_v20).slice (win1_3.rect t)).set ↔ _
  rw [View.set_slice_whole, Rect.mem_set_unit]
  exact Iff.rfl

/-- The ten row blocks tile the array: row r lies in block r / 5000. -/
theorem cover (i : S50000x40.Idx) : ∃ t : Fin cfg1.N, (cfg1.win 3).flush t = true ∧ i ∈ ((cfg1.win 3).blk t).view.set := by
  have hi0 : (i 0).val < 50000 := (i 0).isLt
  have hi1 : (i 1).val < 40 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 40 ≤ (i 1).val ∧ (i 1).val < win1_3.index t (1 : Fin 2) * 40 + 40; omega

/-- The output array after the launch is the rectified matrix times W2, of the arrays as the launch finds them. -/
theorem final (c : Dev nD) :
    (dat1 V c).arrAt 3 cfg1.N = prod (biasRelu (V c main_call0_v19) (V c main_arg3)) (V c main_call0_v1) :=
  (dat1 V c).arrAt_eq_of_cover 3 _ (fun t _ => flushed_eq V c t) cover

end Cert.KernelIdeal.Region1

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.Region2.lean ====
/-
  The third launch: the bias b2 and the row-wise log-softmax, computed in ten blocks of 5000 rows.

  At grid point t the body reads rows 5000·t … of H (the second aggregation's output) and the whole bias b2. With
  x[p, k] = H[5000·t + p, k] + b2[k], m[p] the largest x[p, k] over the row's 40 columns (a fold of max from −∞),
  z = x − m and s[p] = Σₖ exp z[p, k], it writes back z[p, q] − log s[p]. Each of these is a statement about one row, so
  the block it writes back is rows 5000·t … of the log-softmax of the whole biased matrix; the ten blocks tile the rows.
-/
import proofs.«115262_j27109833572875_2_alg».proof.Proof.Gen.KernelIdeal.Frame
import proofs.«115262_j27109833572875_2_alg».proof.Proof.Spec
import proofs.«115262_j27109833572875_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.GcnSpec
open Idealize.ShloMosaic Idealize.ShloMosaic.TcCoe Idealize.ShloMosaic.ValueIdx Idealize.SL.Sem
open Idealize.ShloMosaic.Pipeline (Dat Cfg Window)

/-! ## The body's value in three steps -/

/-- The loaded block with the bias added along its rows. -/
def biased (x0 : Vec Ideal S5000x40 .f32) (x1 : Vec Ideal S40 .f32) : FVec Ideal S5000x40 .f32 :=
  addf (shapeCast S5000x40 x0 shapeCasts_S5000x40_S5000x40)
    (broadcastTo S5000x40 (shapeCast S1x40 x1 shapeCasts_S40_S1x40) broadcasts_S1x40_S5000x40)

/-- A block minus its row maxima. -/
def centered (v : FVec Ideal S5000x40 .f32) : FVec Ideal S5000x40 .f32 :=
  subf v (broadcastTo S5000x40 (shapeCast S5000x1
    (multiReduction .maximumf [1] S5000 v 0xFF800000#32 reduces_S5000x40_S5000 (.inl rfl) rfl) shapeCasts_S5000_S5000x1) broadcasts_S5000x1_S5000x40)

/-- A block minus the logarithm of its rows' sums of exponentials. -/
def normalized (z : FVec Ideal S5000x40 .f32) : FVec Ideal S5000x40 .f32 :=
  subf z (broadcastTo S5000x40 (log (shapeCast S5000x1
    (multiReduction .add [1] S5000 (exp z) 0x00000000#32 reduces_S5000x40_S5000 (.inl rfl) rfl) shapeCasts_S5000_S5000x1)) broadcasts_S5000x1_S5000x40)

/-- What the body stores is the three steps one after the other. -/
theorem pay_split (x0 : Vec Ideal S5000x40 .f32) (x1 : Vec Ideal S40 .f32) :
    k2_pay1 (F := Ideal) x0 x1 = normalized (centered (biased x0 x1)) := rfl

theorem biased_apply (x0 : Vec Ideal S5000x40 .f32) (x1 : Vec Ideal S40 .f32) (p : Fin 5000) (q : Fin 40) :
    biased x0 x1 (ix2 p q) = x0 (ix2 p q) + x1 (ix1 q) := by
  unfold biased
  rw [shapeCast_self]
  show x0 (ix2 p q) + broadcastTo S5000x40 (shapeCast S1x40 x1 shapeCasts_S40_S1x40) broadcasts_S1x40_S5000x40 (ix2 p q) = _
  rw [broadcastTo_1b_ab_apply, shapeCast_a_1a_apply]

/-- The index of column k of row p, as the reduction over axis 1 builds it. -/
theorem lift_eq (p : Fin 5000) (k : Fin 40) : reduces_S5000x40_S5000.lift (ix1 p) k = ix2 p k :=
  funext fun a => Fin.ext (by match a with | ⟨0, _⟩ => rfl | ⟨1, _⟩ => rfl)

/-- The maximum over axis 1 at row p: the fold of max from −∞ over the row's 40 entries. -/
theorem rowmax_apply (v : FVec Ideal S5000x40 .f32) (p : Fin 5000) :
    multiReduction .maximumf [1] S5000 v 0xFF800000#32 reduces_S5000x40_S5000 (.inl rfl) rfl (ix1 p)
      = (Finset.univ : Finset (Fin 40)).fold max (Ideal.ofBits .f32 0xFF800000#32) (fun k => v (ix2 p k)) := by
  refine (Ideal.multiReduction_maximumf_single v 0xFF800000#32 reduces_S5000x40_S5000 (.inl rfl) rfl (ix1 p)).trans ?_
  have e : (v ∘ reduces_S5000x40_S5000.lift (ix1 p)) = fun k : Fin 40 => v (ix2 p k) :=
    funext fun k => congrArg v (lift_eq p k)
  rw [e]
  rfl

/-- The sum over axis 1 at row p: the sum of the row's 40 entries. -/
theorem rowsum_apply (v : FVec Ideal S5000x40 .f32) (p : Fin 5000) :
    multiReduction .add [1] S5000 v 0x00000000#32 reduces_S5000x40_S5000 (.inl rfl) rfl (ix1 p)
      = ∑ k : Fin 40, v (ix2 p k) := by
  refine (Ideal.multiReduction_add_single v 0x00000000#32 reduces_S5000x40_S5000 (.inl rfl) rfl (ix1 p)).trans ?_
  exact Finset.sum_congr rfl fun k _ => congrArg v (lift_eq p k)

theorem centered_apply (v : FVec Ideal S5000x40 .f32) (p : Fin 5000) (q : Fin 40) :
    centered v (ix2 p q)
      = v (ix2 p q) - (Finset.univ : Finset (Fin 40)).fold max (Ideal.ofBits .f32 0xFF800000#32) (fun k => v (ix2 p k)) := by
  unfold centered
  show v (ix2 p q) - broadcastTo S5000x40 (shapeCast S5000x1
    (multiReduction .maximumf [1] S5000 v 0xFF800000#32 reduces_S5000x40_S5000 (.inl rfl) rfl) shapeCasts_S5000_S5000x1) broadcasts_S5000x1_S5000x40 (ix2 p q) = _
  rw [Cert.ColumnLayout.broadcastTo_a1_ab_apply, Cert.ColumnLayout.shapeCast_a_a1_apply, rowmax_apply]

theorem normalized_apply (z : FVec Ideal S5000x40 .f32) (p : Fin 5000) (q : Fin 40) :
    normalized z (ix2 p q) = z (ix2 p q) - Ideal.log (∑ k : Fin 40, Ideal.exp (z (ix2 p k))) := by
  unfold normalized
  show z (ix2 p q) - broadcastTo S5000x40 (log (shapeCast S5000x1
    (multiReduction .add [1] S5000 (exp z) 0x00000000#32 reduces_S5000x40_S5000 (.inl rfl) rfl) shapeCasts_S5000_S5000x1)) broadcasts_S5000x1_S5000x40 (ix2 p q) = _
  rw [Cert.ColumnLayout.broadcastTo_a1_ab_apply]
  show z (ix2 p q) - Ideal.log (shapeCast S5000x1
    (multiReduction .add [1] S5000 (exp z) 0x00000000#32 reduces_S5000x40_S5000 (.inl rfl) rfl) shapeCasts_S5000_S5000x1 (ix2 p (0 : Fin 1))) = _
  rw [Cert.ColumnLayout.shapeCast_a_a1_apply, rowsum_apply]
  rfl

/-- The body's entry (p, q) as an entry of the log-softmax of the whole biased matrix, when the loaded blocks are rows
    `base …` of H and the whole bias. -/
theorem pay_eq_lsm (H : Mat 50000 40) (b : Row 40) (x0 : Vec Ideal S5000x40 .f32) (x1 : Vec Ideal S40 .f32)
    (base : ℕ) (j : S5000x40.Idx) (i : S50000x40.Idx)
    (hx0 : ∀ (y : S5000x40.Idx) (i' : S50000x40.Idx), (i' 0).val = base + (y 0).val → (i' 1).val = (y 1).val → x0 y = H i')
    (hx1 : ∀ (y : S40.Idx), x1 y = b y)
    (hi0 : (i 0).val = base + (j 0).val) (hi1 : (i 1).val = (j 1).val) :
    k2_pay1 (F := Ideal) x0 x1 j = logSoftmax (addBias H b) i := by
  obtain ⟨p, q, rfl⟩ : ∃ (p : Fin 5000) (q : Fin 40), j = ix2 p q := ⟨j 0, j 1, eq_ix2 j⟩
  obtain ⟨r, c', rfl⟩ : ∃ (r : Fin 50000) (c' : Fin 40), i = ix2 r c' := ⟨i 0, i 1, eq_ix2 i⟩
  have hc : c' = q := Fin.ext hi1
  subst hc
  have h0 : ∀ k : Fin 40, x0 (ix2 p k) = H (ix2 r k) := fun k => hx0 (ix2 p k) (ix2 r k) hi0 rfl
  rw [pay_split, normalized_apply]
  simp only [centered_apply, biased_apply, h0, hx1]
  rfl

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps, decided over the ten grid points: the H window and the output window move together along
    the rows, every other block index is zero. -/
theorem idx_facts : ∀ t : Fin cfg2.N, win2_0.index t (0 : Fin 2) = win2_2.index t (0 : Fin 2)
    ∧ win2_0.index t (1 : Fin 2) = 0
    ∧ win2_1.index t (0 : Fin 1) = 0
    ∧ win2_2.index t (1 : Fin 2) = 0
    ∧ win2_2.index t (0 : Fin 2) ≤ 9 :=
  (by decide +kernel : ∀ t : Fin grid2.N, _)

/-- Every row block is some point's. -/
theorem idx_onto : ∀ (q0 : Fin 10), ∃ t : Fin cfg2.N, win2_2.index t = ![q0.val, 0] :=
  (by decide +kernel : ∀ (q0 : Fin 10), ∃ t : Fin grid2.N, win2_2.index t = ![q0.val, 0])

/-- What point `t` writes back is block `t` of the log-softmax of the biased matrix, of the arrays as the launch finds
    them. -/
theorem flushed_eq (c : Dev nD) (t : Fin cfg2.N) :
    (dat2 V c).flushed 2 t = ((cfg2.win 2).blk t).view.read (Elt Ideal)
      (logSoftmax (addBias (V c main_call0_v37) (V c main_arg5))) := by
  show (cfg2.win 2).cut (grid2.coords t) ((dat2 V c).after 2 t) = _
  rw [after2_2]
  unfold out2_2
  rw [View.canon_unit_zero hz]
  simp only [View.ld_unit_zero (S := S5000x40) hz, View.ld_unit_zero (S := S40) hz1]
  obtain ⟨e0, e1, e2, e3, e4⟩ := idx_facts t
  funext j
  show k2_pay1 (F := Ideal) (iblk2 V c 0 t) (iblk2 V c 1 t) j
    = logSoftmax (addBias (V c main_call0_v37) (V c main_arg5)) (((cfg2.win 2).blk t).view.emb j)
  refine pay_eq_lsm (V c main_call0_v37) (V c main_arg5) (iblk2 V c 0 t) (iblk2 V c 1 t)
    (win2_2.index t (0 : Fin 2) * 5000) j _ ?_ ?_ ?_ ?_
  · intro y i' h0 h1
    show V c main_call0_v37 (((cfg2.win 0).blk t).view.emb y) = V c main_call0_v37 i'
    refine congrArg _ (funext fun a => Fin.ext ?_)
    match a with
    | ⟨0, _⟩ => show win2_0.index t (0 : Fin 2) * 5000 + 1 * (y 0).val = (i' 0).val; omega
    | ⟨1, _⟩ => show win2_0.index t (1 : Fin 2) * 40 + 1 * (y 1).val = (i' 1).val; omega
  · intro y
    show V c main_arg5 (((cfg2.win 1).blk t).view.emb y) = V c main_arg5 y
    refine congrArg _ (funext fun a => Fin.ext ?_)
    match a with
    | ⟨0, _⟩ => show win2_1.index t (0 : Fin 1) * 40 + 1 * (y 0).val = (y 0).val; omega
  · show win2_2.index t (0 : Fin 2) * 5000 + 1 * (j 0).val = win2_2.index t (0 : Fin 2) * 5000 + (j 0).val; omega
  · show win2_2.index t (1 : Fin 2) * 40 + 1 * (j 1).val = (j 1).val; omega

/-- An index of the output array is in point `t`'s block iff each coordinate is in the block's range on its axis. -/
theorem mem_blk (t : Fin cfg2.N) (i : S50000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v0).slice (win2_2.rect t)).set ↔ _
  rw [View.set_slice_whole, Rect.mem_set_unit]
  exact Iff.rfl

/-- The ten row blocks tile the array: row r lies in block r / 5000. -/
theorem cover (i : S50000x40.Idx) : ∃ t : Fin cfg2.N, (cfg2.win 2).flush t = true ∧ i ∈ ((cfg2.win 2).blk t).view.set := by
  have hi0 : (i 0).val < 50000 := (i 0).isLt
  have hi1 : (i 1).val < 40 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- The output array after the launch is the log-softmax of the biased matrix, of the arrays as the launch finds them. -/
theorem final (c : Dev nD) :
    (dat2 V c).arrAt 2 cfg2.N = logSoftmax (addBias (V c main_call0_v37) (V c main_arg5)) :=
  (dat2 V c).arrAt_eq_of_cover 2 _ (fun t _ => flushed_eq V c t) cover

end Cert.KernelIdeal.Region2

end
-- ==== Proof.KernelValue.lean ====
/-
  The idealized kernel's result as one function of its arguments.

  Between the launch and the return the program's buffer contents pass six boundaries. The host rounds W1 and W2 to
  bf16 (on the extended reals: nothing changes); the first launch leaves X · W1 in its output array; the first
  aggregation (twenty host operations, the same in both programs, never opened here) is applied to it; the second launch
  leaves relu (· + b1) · W2; the second aggregation is applied; the third launch leaves the log-softmax of (· + b2). Each
  argument array, and each intermediate a later step reads, is carried unchanged across the steps that do not write it.
-/
import proofs.«115262_j27109833572875_2_alg».proof.Proof.Gen.KernelIdeal.Frame
import proofs.«115262_j27109833572875_2_alg».proof.Proof.Spec
import proofs.«115262_j27109833572875_2_alg».proof.Proof.Region0
import proofs.«115262_j27109833572875_2_alg».proof.Proof.Region1
import proofs.«115262_j27109833572875_2_alg».proof.Proof.Region2
import Idealize.ShloMosaic.Lib.StableHlo.Run

set_option maxRecDepth 16384

noncomputable section

namespace Cert.KernelIdeal.KernelValue

open Cert.KernelIdeal Cert.KernelIdeal.Gen Cert.GcnSpec
open Idealize.ShloMosaic Idealize.ShloMosaic.TcCoe Idealize.SL.Sem Idealize.ShloMosaic.StableHlo

/-- The first aggregation as the program applies it to a 50000 × 128 matrix `h`: the destination row of the edge list
    as scatter indices, the source row (negative entries wrapped by 50000) as gather indices, the gathered rows scaled
    by the edge weights and scatter-added into zeros. -/
def agg1 (idx : IVec S2x1600000 32) (ew : FVec Ideal S1600000 .f32)
    (h : FVec Ideal S50000x128 .f32) : FVec Ideal S50000x128 .f32 :=
  Host.scatterAdd (F := Ideal) scatter_S50000x128_S1600000x1_S1600000x128_1_0_0_1 (broadcastInDim S50000x128 ![] bcast_S_S50000x128 (constant (F := Ideal) S_ .f32 0x00000000#32)) (broadcastInDim S1600000x1 ![0] bcast_S1600000_S1600000x1_0 (shapeCast _ (extractStridedSlice S1x1600000 ![1, 0] idx slices_S2x1600000_S1x1600000_1_0) shapeCasts_S1x1600000_S1600000)) (mulf (Host.gather gather_S50000x128_S1600000x1_S1600000x128_1_0_n_n_0_1_1128 h (broadcastInDim S1600000x1 ![0] bcast_S1600000_S1600000x1_0 (select (cmpi .slt (shapeCast _ (extractStridedSlice S1x1600000 ![0, 0] idx slices_S2x1600000_S1x1600000_0_0) shapeCasts_S1x1600000_S1600000) (broadcastInDim S1600000 ![] bcast_S_S1600000 (constantI S_ 32 0#32))) (addi (shapeCast _ (extractStridedSlice S1x1600000 ![0, 0] idx slices_S2x1600000_S1x1600000_0_0) shapeCasts_S1x1600000_S1600000) (broadcastInDim S1600000 ![] bcast_S_S1600000 (constantI S_ 32 50000#32))) (shapeCast _ (extractStridedSlice S1x1600000 ![0, 0] idx slices_S2x1600000_S1x1600000_0_0) shapeCasts_S1x1600000_S1600000)))) (broadcastInDim S1600000x128 ![0, 1] bcast_S1600000x1_S1600000x128_0_1 (broadcastInDim S1600000x1 ![0] bcast_S1600000_S1600000x1_0 ew)))

/-- The second aggregation: the same, on a 50000 × 40 matrix. -/
def agg2 (idx : IVec S2x1600000 32) (ew : FVec Ideal S1600000 .f32)
    (h : FVec Ideal S50000x40 .f32) : FVec Ideal S50000x40 .f32 :=
  Host.scatterAdd (F := Ideal) scatter_S50000x40_S1600000x1_S1600000x40_1_0_0_1 (broadcastInDim S50000x40 ![] bcast_S_S50000x40 (constant (F := Ideal) S_ .f32 0x00000000#32)) (broadcastInDim S1600000x1 ![0] bcast_S1600000_S1600000x1_0 (shapeCast _ (extractStridedSlice S1x1600000 ![1, 0] idx slices_S2x1600000_S1x1600000_1_0) shapeCasts_S1x1600000_S1600000)) (mulf (Host.gather gather_S50000x40_S1600000x1_S1600000x40_1_0_n_n_0_1_140 h (broadcastInDim S1600000x1 ![0] bcast_S1600000_S1600000x1_0 (select (cmpi .slt (shapeCast _ (extractStridedSlice S1x1600000 ![0, 0] idx slices_S2x1600000_S1x1600000_0_0) shapeCasts_S1x1600000_S1600000) (broadcastInDim S1600000 ![] bcast_S_S1600000 (constantI S_ 32 0#32))) (addi (shapeCast _ (extractStridedSlice S1x1600000 ![0, 0] idx slices_S2x1600000_S1x1600000_0_0) shapeCasts_S1x1600000_S1600000) (broadcastInDim S1600000 ![] bcast_S_S1600000 (constantI S_ 32 50000#32))) (shapeCast _ (extractStridedSlice S1x1600000 ![0, 0] idx slices_S2x1600000_S1x1600000_0_0) shapeCasts_S1x1600000_S1600000)))) (broadcastInDim S1600000x40 ![0, 1] bcast_S1600000x1_S1600000x40_0_1 (broadcastInDim S1600000x1 ![0] bcast_S1600000_S1600000x1_0 ew)))

/-! ## The host stretches, from any contents -/

section Stretches
variable (W : Valuation τ sig (Elt Ideal))

theorem s0_v0 : after (hostOps0 (F := Ideal)) W (Proc.devRef .tc main_call0_v0) = truncf (F := Ideal) .bf16 (W (Proc.devRef .tc main_arg2)) bitsLt_bf16_f32 := by
  dsimp only [hostOps0]; after_results <;> rfl
theorem s0_v1 : after (hostOps0 (F := Ideal)) W (Proc.devRef .tc main_call0_v1) = truncf (F := Ideal) .bf16 (W (Proc.devRef .tc main_arg4)) bitsLt_bf16_f32 := by
  dsimp only [hostOps0]; after_results <;> rfl
theorem s0_main_arg0 : after (hostOps0 (F := Ideal)) W (Proc.devRef .tc main_arg0) = W (Proc.devRef .tc main_arg0) := by
  dsimp only [hostOps0]; after_results <;> rfl
theorem s0_main_arg1 : after (hostOps0 (F := Ideal)) W (Proc.devRef .tc main_arg1) = W (Proc.devRef .tc main_arg1) := by
  dsimp only [hostOps0]; after_results <;> rfl
theorem s0_main_arg3 : after (hostOps0 (F := Ideal)) W (Proc.devRef .tc main_arg3) = W (Proc.devRef .tc main_arg3) := by
  dsimp only [hostOps0]; after_results <;> rfl
theorem s0_main_arg5 : after (hostOps0 (F := Ideal)) W (Proc.devRef .tc main_arg5) = W (Proc.devRef .tc main_arg5) := by
  dsimp only [hostOps0]; after_results <;> rfl
theorem s0_main_arg6 : after (hostOps0 (F := Ideal)) W (Proc.devRef .tc main_arg6) = W (Proc.devRef .tc main_arg6) := by
  dsimp only [hostOps0]; after_results <;> rfl

set_option maxHeartbeats 1000000 in
theorem s1_out : after (hostOps1 (F := Ideal)) W (Proc.devRef .tc main_call0_v19)
    = agg1 (W (Proc.devRef .tc main_arg6)) (W (Proc.devRef .tc main_arg1)) (W (Proc.devRef .tc main_call0_v2)) := by
  dsimp only [hostOps1]; after_results_simp <;> rfl
theorem s1_main_arg1 : after (hostOps1 (F := Ideal)) W (Proc.devRef .tc main_arg1) = W (Proc.devRef .tc main_arg1) := by
  dsimp only [hostOps1]; after_results <;> rfl
theorem s1_main_arg3 : after (hostOps1 (F := Ideal)) W (Proc.devRef .tc main_arg3) = W (Proc.devRef .tc main_arg3) := by
  dsimp only [hostOps1]; after_results <;> rfl
theorem s1_main_arg5 : after (hostOps1 (F := Ideal)) W (Proc.devRef .tc main_arg5) = W (Proc.devRef .tc main_arg5) := by
  dsimp only [hostOps1]; after_results <;> rfl
theorem s1_main_arg6 : after (hostOps1 (F := Ideal)) W (Proc.devRef .tc main_arg6) = W (Proc.devRef .tc main_arg6) := by
  dsimp only [hostOps1]; after_results <;> rfl
theorem s1_main_call0_v1 : after (hostOps1 (F := Ideal)) W (Proc.devRef .tc main_call0_v1) = W (Proc.devRef .tc main_call0_v1) := by
  dsimp only [hostOps1]; after_results <;> rfl

set_option maxHeartbeats 1000000 in
theorem s2_out : after (hostOps2 (F := Ideal)) W (Proc.devRef .tc main_call0_v37)
    = agg2 (W (Proc.devRef .tc main_arg6)) (W (Proc.devRef .tc main_arg1)) (W (Proc.devRef .tc main_call0_v20)) := by
  dsimp only [hostOps2]; after_results_simp <;> rfl
theorem s2_main_arg5 : after (hostOps2 (F := Ideal)) W (Proc.devRef .tc main_arg5) = W (Proc.devRef .tc main_arg5) := by
  dsimp only [hostOps2]; after_results <;> rfl

end Stretches

/-! ## The contents at each boundary -/

variable (m : (ℓ : Loc nD τ sig) → Buf (Elt Ideal) ℓ) (ρ : Dev nD → PrngReg) (c : Dev nD)

-- after the host's roundings
theorem w1_main_arg0 : W1 m ρ c (Proc.devRef .tc main_arg0) = (m ((c : Thread nD τ).loc main_arg0)) := s0_main_arg0 (W0 m ρ c)
theorem w1_main_arg1 : W1 m ρ c (Proc.devRef .tc main_arg1) = (m ((c : Thread nD τ).loc main_arg1)) := s0_main_arg1 (W0 m ρ c)
theorem w1_main_arg3 : W1 m ρ c (Proc.devRef .tc main_arg3) = (m ((c : Thread nD τ).loc main_arg3)) := s0_main_arg3 (W0 m ρ c)
theorem w1_main_arg5 : W1 m ρ c (Proc.devRef .tc main_arg5) = (m ((c : Thread nD τ).loc main_arg5)) := s0_main_arg5 (W0 m ρ c)
theorem w1_main_arg6 : W1 m ρ c (Proc.devRef .tc main_arg6) = (m ((c : Thread nD τ).loc main_arg6)) := s0_main_arg6 (W0 m ρ c)
theorem w1_v0 : W1 m ρ c (Proc.devRef .tc main_call0_v0) = (m ((c : Thread nD τ).loc main_arg2)) := s0_v0 (W0 m ρ c)
theorem w1_v1 : W1 m ρ c (Proc.devRef .tc main_call0_v1) = (m ((c : Thread nD τ).loc main_arg4)) := s0_v1 (W0 m ρ c)

-- after the first launch
theorem w2_v2 : W2 m ρ c (Proc.devRef .tc main_call0_v2) = prod (m ((c : Thread nD τ).loc main_arg0)) (m ((c : Thread nD τ).loc main_arg2)) := by
  refine (W2_arr m ρ c 2).trans ((Region0.final (V1 m ρ) c).trans ?_)
  show prod (W1 m ρ c (Proc.devRef .tc main_arg0)) (W1 m ρ c (Proc.devRef .tc main_call0_v0)) = _
  rw [w1_main_arg0, w1_v0]
theorem w2_main_arg1 : W2 m ρ c (Proc.devRef .tc main_arg1) = (m ((c : Thread nD τ).loc main_arg1)) := (W2_of_ne m ρ c main_arg1 (by decide)).trans (w1_main_arg1 m ρ c)
theorem w2_main_arg3 : W2 m ρ c (Proc.devRef .tc main_arg3) = (m ((c : Thread nD τ).loc main_arg3)) := (W2_of_ne m ρ c main_arg3 (by decide)).trans (w1_main_arg3 m ρ c)
theorem w2_main_arg5 : W2 m ρ c (Proc.devRef .tc main_arg5) = (m ((c : Thread nD τ).loc main_arg5)) := (W2_of_ne m ρ c main_arg5 (by decide)).trans (w1_main_arg5 m ρ c)
theorem w2_main_arg6 : W2 m ρ c (Proc.devRef .tc main_arg6) = (m ((c : Thread nD τ).loc main_arg6)) := (W2_of_ne m ρ c main_arg6 (by decide)).trans (w1_main_arg6 m ρ c)
theorem w2_v1 : W2 m ρ c (Proc.devRef .tc main_call0_v1) = (m ((c : Thread nD τ).loc main_arg4)) := (W2_of_ne m ρ c main_call0_v1 (by decide)).trans (w1_v1 m ρ c)

-- after the first aggregation
theorem w3_v19 : W3 m ρ c (Proc.devRef .tc main_call0_v19)
    = agg1 (m ((c : Thread nD τ).loc main_arg6)) (m ((c : Thread nD τ).loc main_arg1)) (prod (m ((c : Thread nD τ).loc main_arg0)) (m ((c : Thread nD τ).loc main_arg2))) := by
  refine (s1_out (W2 m ρ c)).trans ?_
  rw [w2_main_arg6, w2_main_arg1, w2_v2]
theorem w3_main_arg1 : W3 m ρ c (Proc.devRef .tc main_arg1) = (m ((c : Thread nD τ).loc main_arg1)) := (s1_main_arg1 (W2 m ρ c)).trans (w2_main_arg1 m ρ c)
theorem w3_main_arg3 : W3 m ρ c (Proc.devRef .tc main_arg3) = (m ((c : Thread nD τ).loc main_arg3)) := (s1_main_arg3 (W2 m ρ c)).trans (w2_main_arg3 m ρ c)
theorem w3_main_arg5 : W3 m ρ c (Proc.devRef .tc main_arg5) = (m ((c : Thread nD τ).loc main_arg5)) := (s1_main_arg5 (W2 m ρ c)).trans (w2_main_arg5 m ρ c)
theorem w3_main_arg6 : W3 m ρ c (Proc.devRef .tc main_arg6) = (m ((c : Thread nD τ).loc main_arg6)) := (s1_main_arg6 (W2 m ρ c)).trans (w2_main_arg6 m ρ c)
theorem w3_v1 : W3 m ρ c (Proc.devRef .tc main_call0_v1) = (m ((c : Thread nD τ).loc main_arg4)) := (s1_main_call0_v1 (W2 m ρ c)).trans (w2_v1 m ρ c)

-- after the second launch
theorem w4_v20 : W4 m ρ c (Proc.devRef .tc main_call0_v20)
    = prod (biasRelu (agg1 (m ((c : Thread nD τ).loc main_arg6)) (m ((c : Thread nD τ).loc main_arg1)) (prod (m ((c : Thread nD τ).loc main_arg0)) (m ((c : Thread nD τ).loc main_arg2)))) (m ((c : Thread nD τ).loc main_arg3))) (m ((c : Thread nD τ).loc main_arg4)) := by
  refine (W4_arr m ρ c 3).trans ((Region1.final (V3 m ρ) c).trans ?_)
  show prod (biasRelu (W3 m ρ c (Proc.devRef .tc main_call0_v19)) (W3 m ρ c (Proc.devRef .tc main_arg3))) (W3 m ρ c (Proc.devRef .tc main_call0_v1)) = _
  rw [w3_v19, w3_main_arg3, w3_v1]
theorem w4_main_arg1 : W4 m ρ c (Proc.devRef .tc main_arg1) = (m ((c : Thread nD τ).loc main_arg1)) := (W4_of_ne m ρ c main_arg1 (by decide)).trans (w3_main_arg1 m ρ c)
theorem w4_main_arg5 : W4 m ρ c (Proc.devRef .tc main_arg5) = (m ((c : Thread nD τ).loc main_arg5)) := (W4_of_ne m ρ c main_arg5 (by decide)).trans (w3_main_arg5 m ρ c)
theorem w4_main_arg6 : W4 m ρ c (Proc.devRef .tc main_arg6) = (m ((c : Thread nD τ).loc main_arg6)) := (W4_of_ne m ρ c main_arg6 (by decide)).trans (w3_main_arg6 m ρ c)

-- after the second aggregation
theorem w5_v37 : W5 m ρ c (Proc.devRef .tc main_call0_v37)
    = agg2 (m ((c : Thread nD τ).loc main_arg6)) (m ((c : Thread nD τ).loc main_arg1)) (prod (biasRelu (agg1 (m ((c : Thread nD τ).loc main_arg6)) (m ((c : Thread nD τ).loc main_arg1)) (prod (m ((c : Thread nD τ).loc main_arg0)) (m ((c : Thread nD τ).loc main_arg2)))) (m ((c : Thread nD τ).loc main_arg3))) (m ((c : Thread nD τ).loc main_arg4))) := by
  refine (s2_out (W4 m ρ c)).trans ?_
  rw [w4_main_arg6, w4_main_arg1, w4_v20]
theorem w5_main_arg5 : W5 m ρ c (Proc.devRef .tc main_arg5) = (m ((c : Thread nD τ).loc main_arg5)) := (s2_main_arg5 (W4 m ρ c)).trans (w4_main_arg5 m ρ c)

/-- After the third launch the result buffer holds the network's value at the launch arrays. -/
theorem last_value : W6 m ρ c (Proc.devRef .tc main_v0)
    = gcn (agg1 (m ((c : Thread nD τ).loc main_arg6)) (m ((c : Thread nD τ).loc main_arg1))) (agg2 (m ((c : Thread nD τ).loc main_arg6)) (m ((c : Thread nD τ).loc main_arg1)))
        (m ((c : Thread nD τ).loc main_arg0)) (m ((c : Thread nD τ).loc main_arg2)) (m ((c : Thread nD τ).loc main_arg3)) (m ((c : Thread nD τ).loc main_arg4)) (m ((c : Thread nD τ).loc main_arg5)) := by
  refine (W6_arr m ρ c 2).trans ((Region2.final (V5 m ρ) c).trans ?_)
  show logSoftmax (addBias (W5 m ρ c (Proc.devRef .tc main_call0_v37)) (W5 m ρ c (Proc.devRef .tc main_arg5))) = _
  rw [w5_v37, w5_main_arg5]
  rfl

end Cert.KernelIdeal.KernelValue

end
-- ==== Proof.RefRun.lean ====
/-
  The reference program's run, as a fold of its host operations.

  The reference is a straight line of 66 host operations, which fall into five stretches: the product X · W1; the first
  sparse aggregation (20 operations: the two index rows sliced out, negative sources wrapped, the gather, the scaling by
  the edge weights, the scatter-add into zeros); the bias, the rectifier and the product with W2 (7 operations); the
  second aggregation (20 operations); the bias and the row-wise log-softmax (18 operations). Every weakly fair execution
  terminates with every buffer at the fold of the operations' results over the launch contents, and that fold is the
  five stretches' folds one after the other.
-/
import proofs.«115262_j27109833572875_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 66 operations, in order (a called function's operations stand in its call's place). -/
abbrev ops : List (HloOp τ sig (Elt F)) :=
  [ binary main_arg0 main_arg2 main_v0 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    unary main_arg6 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    unary main_arg6 main_v3 ((extractStridedSlice S1x1600000 ![1, 0] · slices_S2x1600000_S1x1600000_1_0) : (⟨S2x1600000, .i32⟩ : BufTy).Contents (Elt F) → (⟨S1x1600000, .i32⟩ : BufTy).Contents (Elt F)),
    reshape main_v3 main_v4 rfl shapeCasts_S1x1600000_S1600000,
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v2 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v7 (broadcastInDim S1600000 ![] bcast_S_S1600000 : (⟨S_, .i32⟩ : BufTy).Contents (Elt F) → (⟨S1600000, .i32⟩ : BufTy).Contents (Elt F)),
    binary main_v2 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v2 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_v0 main_v10 main_v11 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_arg1 main_v12 (broadcastInDim S1600000x1 ![0] bcast_S1600000_S1600000x1_0 : (⟨S1600000, .f32⟩ : BufTy).Contents (Elt F) → (⟨S1600000x1, .f32⟩ : BufTy).Contents (Elt F)),
    unary main_v12 main_v13 (broadcastInDim S1600000x128 ![0, 1] bcast_S1600000x1_S1600000x128_0_1 : (⟨S1600000x1, .f32⟩ : BufTy).Contents (Elt F) → (⟨S1600000x128, .f32⟩ : BufTy).Contents (Elt F)),
    binary main_v11 main_v13 main_v14 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v15 (broadcastInDim S50000x128 ![] bcast_S_S50000x128 : (⟨S_, .f32⟩ : BufTy).Contents (Elt F) → (⟨S50000x128, .f32⟩ : BufTy).Contents (Elt F)),
    unary main_v4 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    unary main_arg3 main_v18 (broadcastInDim S1x128 ![1] bcast_S128_S1x128_1 : (⟨S128, .f32⟩ : BufTy).Contents (Elt F) → (⟨S1x128, .f32⟩ : BufTy).Contents (Elt F)),
    unary main_v18 main_v19 (broadcastInDim S50000x128 ![0, 1] bcast_S1x128_S50000x128_0_1 : (⟨S1x128, .f32⟩ : BufTy).Contents (Elt F) → (⟨S50000x128, .f32⟩ : BufTy).Contents (Elt F)),
    binary main_v17 main_v19 main_v20 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v20) (TRef.of (T := ⟨S50000x128, .f32⟩) main_call0_v0) (TRef.of (T := ⟨S50000x128, .f32⟩) main_v21) maximumf,
    binary main_v21 main_arg4 main_v22 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg6 main_v23 ((extractStridedSlice S1x1600000 ![0, 0] · slices_S2x1600000_S1x1600000_0_0) : (⟨S2x1600000, .i32⟩ : BufTy).Contents (Elt F) → (⟨S1x1600000, .i32⟩ : BufTy).Contents (Elt F)),
    reshape main_v23 main_v24 rfl shapeCasts_S1x1600000_S1600000,
    unary main_arg6 main_v25 ((extractStridedSlice S1x1600000 ![1, 0] · slices_S2x1600000_S1x1600000_1_0) : (⟨S2x1600000, .i32⟩ : BufTy).Contents (Elt F) → (⟨S1x1600000, .i32⟩ : BufTy).Contents (Elt F)),
    reshape main_v25 main_v26 rfl shapeCasts_S1x1600000_S1600000,
    nullary main_c_1 (constantI S_ 32 0#32),
    unary main_c_1 main_v27 (broadcastInDim S1600000 ![] bcast_S_S1600000 : (⟨S_, .i32⟩ : BufTy).Contents (Elt F) → (⟨S1600000, .i32⟩ : BufTy).Contents (Elt F)),
    binary main_v24 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 50000#32),
    unary main_c_2 main_v29 (broadcastInDim S1600000 ![] bcast_S_S1600000 : (⟨S_, .i32⟩ : BufTy).Contents (Elt F) → (⟨S1600000, .i32⟩ : BufTy).Contents (Elt F)),
    binary main_v24 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v24 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v22 main_v32 main_v33 ((fun x i => Host.gather gather_S50000x40_S1600000x1_S1600000x40_1_0_n_n_0_1_140 x i) : (⟨S50000x40, .f32⟩ : BufTy).Contents (Elt F) → (⟨S1600000x1, .i32⟩ : BufTy).Contents (Elt F) → (⟨S1600000x40, .f32⟩ : BufTy).Contents (Elt F)),
    unary main_arg1 main_v34 (broadcastInDim S1600000x1 ![0] bcast_S1600000_S1600000x1_0 : (⟨S1600000, .f32⟩ : BufTy).Contents (Elt F) → (⟨S1600000x1, .f32⟩ : BufTy).Contents (Elt F)),
    unary main_v34 main_v35 (broadcastInDim S1600000x40 ![0, 1] bcast_S1600000x1_S1600000x40_0_1 : (⟨S1600000x1, .f32⟩ : BufTy).Contents (Elt F) → (⟨S1600000x40, .f32⟩ : BufTy).Contents (Elt F)),
    binary main_v33 main_v35 main_v36 (mulf : (⟨S1600000x40, .f32⟩ : BufTy).Contents (Elt F) → (⟨S1600000x40, .f32⟩ : BufTy).Contents (Elt F) → (⟨S1600000x40, .f32⟩ : BufTy).Contents (Elt F)),
    nullary main_cst_3 (constant S_ .f32 0x00000000#32),
    unary main_cst_3 main_v37 (broadcastInDim S50000x40 ![] bcast_S_S50000x40 : (⟨S_, .f32⟩ : BufTy).Contents (Elt F) → (⟨S50000x40, .f32⟩ : BufTy).Contents (Elt F)),
    unary main_v26 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S50000x40_S1600000x1_S1600000x40_1_0_0_1 x i u) : (⟨S50000x40, .f32⟩ : BufTy).Contents (Elt F) → (⟨S1600000x1, .i32⟩ : BufTy).Contents (Elt F) → (⟨S1600000x40, .f32⟩ : BufTy).Contents (Elt F) → (⟨S50000x40, .f32⟩ : BufTy).Contents (Elt F)),
    unary main_arg5 main_v40 (broadcastInDim S1x40 ![1] bcast_S40_S1x40_1 : (⟨S40, .f32⟩ : BufTy).Contents (Elt F) → (⟨S1x40, .f32⟩ : BufTy).Contents (Elt F)),
    unary main_v40 main_v41 (broadcastInDim S50000x40 ![0, 1] bcast_S1x40_S50000x40_0_1 : (⟨S1x40, .f32⟩ : BufTy).Contents (Elt F) → (⟨S50000x40, .f32⟩ : BufTy).Contents (Elt F)),
    binary main_v39 main_v41 main_v42 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call1_cst) (constant S_ .f32 0xFF800000#32),
    TRef.binary (TRef.of (T := ⟨S50000x40, .f32⟩) main_v42) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v42) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v43) subf ]

/-- The product X · W1. -/
abbrev opsA : List (HloOp τ sig (Elt F)) :=
  [ binary main_arg0 main_arg2 main_v0 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)) ]
/-- The first aggregation. -/
abbrev opsB : List (HloOp τ sig (Elt F)) :=
  [ unary main_arg6 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    unary main_arg6 main_v3 ((extractStridedSlice S1x1600000 ![1, 0] · slices_S2x1600000_S1x1600000_1_0) : (⟨S2x1600000, .i32⟩ : BufTy).Contents (Elt F) → (⟨S1x1600000, .i32⟩ : BufTy).Contents (Elt F)),
    reshape main_v3 main_v4 rfl shapeCasts_S1x1600000_S1600000,
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v2 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v7 (broadcastInDim S1600000 ![] bcast_S_S1600000 : (⟨S_, .i32⟩ : BufTy).Contents (Elt F) → (⟨S1600000, .i32⟩ : BufTy).Contents (Elt F)),
    binary main_v2 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v2 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_v0 main_v10 main_v11 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_arg1 main_v12 (broadcastInDim S1600000x1 ![0] bcast_S1600000_S1600000x1_0 : (⟨S1600000, .f32⟩ : BufTy).Contents (Elt F) → (⟨S1600000x1, .f32⟩ : BufTy).Contents (Elt F)),
    unary main_v12 main_v13 (broadcastInDim S1600000x128 ![0, 1] bcast_S1600000x1_S1600000x128_0_1 : (⟨S1600000x1, .f32⟩ : BufTy).Contents (Elt F) → (⟨S1600000x128, .f32⟩ : BufTy).Contents (Elt F)),
    binary main_v11 main_v13 main_v14 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v15 (broadcastInDim S50000x128 ![] bcast_S_S50000x128 : (⟨S_, .f32⟩ : BufTy).Contents (Elt F) → (⟨S50000x128, .f32⟩ : BufTy).Contents (Elt F)),
    unary main_v4 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)) ]
/-- The bias, the rectifier, the product with W2. -/
abbrev opsC : List (HloOp τ sig (Elt F)) :=
  [ unary main_arg3 main_v18 (broadcastInDim S1x128 ![1] bcast_S128_S1x128_1 : (⟨S128, .f32⟩ : BufTy).Contents (Elt F) → (⟨S1x128, .f32⟩ : BufTy).Contents (Elt F)),
    unary main_v18 main_v19 (broadcastInDim S50000x128 ![0, 1] bcast_S1x128_S50000x128_0_1 : (⟨S1x128, .f32⟩ : BufTy).Contents (Elt F) → (⟨S50000x128, .f32⟩ : BufTy).Contents (Elt F)),
    binary main_v17 main_v19 main_v20 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v20) (TRef.of (T := ⟨S50000x128, .f32⟩) main_call0_v0) (TRef.of (T := ⟨S50000x128, .f32⟩) main_v21) maximumf,
    binary main_v21 main_arg4 main_v22 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)) ]
/-- The second aggregation. -/
abbrev opsD : List (HloOp τ sig (Elt F)) :=
  [ unary main_arg6 main_v23 ((extractStridedSlice S1x1600000 ![0, 0] · slices_S2x1600000_S1x1600000_0_0) : (⟨S2x1600000, .i32⟩ : BufTy).Contents (Elt F) → (⟨S1x1600000, .i32⟩ : BufTy).Contents (Elt F)),
    reshape main_v23 main_v24 rfl shapeCasts_S1x1600000_S1600000,
    unary main_arg6 main_v25 ((extractStridedSlice S1x1600000 ![1, 0] · slices_S2x1600000_S1x1600000_1_0) : (⟨S2x1600000, .i32⟩ : BufTy).Contents (Elt F) → (⟨S1x1600000, .i32⟩ : BufTy).Contents (Elt F)),
    reshape main_v25 main_v26 rfl shapeCasts_S1x1600000_S1600000,
    nullary main_c_1 (constantI S_ 32 0#32),
    unary main_c_1 main_v27 (broadcastInDim S1600000 ![] bcast_S_S1600000 : (⟨S_, .i32⟩ : BufTy).Contents (Elt F) → (⟨S1600000, .i32⟩ : BufTy).Contents (Elt F)),
    binary main_v24 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 50000#32),
    unary main_c_2 main_v29 (broadcastInDim S1600000 ![] bcast_S_S1600000 : (⟨S_, .i32⟩ : BufTy).Contents (Elt F) → (⟨S1600000, .i32⟩ : BufTy).Contents (Elt F)),
    binary main_v24 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v24 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v22 main_v32 main_v33 ((fun x i => Host.gather gather_S50000x40_S1600000x1_S1600000x40_1_0_n_n_0_1_140 x i) : (⟨S50000x40, .f32⟩ : BufTy).Contents (Elt F) → (⟨S1600000x1, .i32⟩ : BufTy).Contents (Elt F) → (⟨S1600000x40, .f32⟩ : BufTy).Contents (Elt F)),
    unary main_arg1 main_v34 (broadcastInDim S1600000x1 ![0] bcast_S1600000_S1600000x1_0 : (⟨S1600000, .f32⟩ : BufTy).Contents (Elt F) → (⟨S1600000x1, .f32⟩ : BufTy).Contents (Elt F)),
    unary main_v34 main_v35 (broadcastInDim S1600000x40 ![0, 1] bcast_S1600000x1_S1600000x40_0_1 : (⟨S1600000x1, .f32⟩ : BufTy).Contents (Elt F) → (⟨S1600000x40, .f32⟩ : BufTy).Contents (Elt F)),
    binary main_v33 main_v35 main_v36 (mulf : (⟨S1600000x40, .f32⟩ : BufTy).Contents (Elt F) → (⟨S1600000x40, .f32⟩ : BufTy).Contents (Elt F) → (⟨S1600000x40, .f32⟩ : BufTy).Contents (Elt F)),
    nullary main_cst_3 (constant S_ .f32 0x00000000#32),
    unary main_cst_3 main_v37 (broadcastInDim S50000x40 ![] bcast_S_S50000x40 : (⟨S_, .f32⟩ : BufTy).Contents (Elt F) → (⟨S50000x40, .f32⟩ : BufTy).Contents (Elt F)),
    unary main_v26 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S50000x40_S1600000x1_S1600000x40_1_0_0_1 x i u) : (⟨S50000x40, .f32⟩ : BufTy).Contents (Elt F) → (⟨S1600000x1, .i32⟩ : BufTy).Contents (Elt F) → (⟨S1600000x40, .f32⟩ : BufTy).Contents (Elt F) → (⟨S50000x40, .f32⟩ : BufTy).Contents (Elt F)) ]
/-- The bias and the row-wise log-softmax. -/
abbrev opsE : List (HloOp τ sig (Elt F)) :=
  [ unary main_arg5 main_v40 (broadcastInDim S1x40 ![1] bcast_S40_S1x40_1 : (⟨S40, .f32⟩ : BufTy).Contents (Elt F) → (⟨S1x40, .f32⟩ : BufTy).Contents (Elt F)),
    unary main_v40 main_v41 (broadcastInDim S50000x40 ![0, 1] bcast_S1x40_S50000x40_0_1 : (⟨S1x40, .f32⟩ : BufTy).Contents (Elt F) → (⟨S50000x40, .f32⟩ : BufTy).Contents (Elt F)),
    binary main_v39 main_v41 main_v42 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call1_cst) (constant S_ .f32 0xFF800000#32),
    TRef.binary (TRef.of (T := ⟨S50000x40, .f32⟩) main_v42) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v42) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v43) subf ]

theorem ops_eq : (ops : List (HloOp τ sig (Elt F))) = opsA ++ (opsB ++ (opsC ++ (opsD ++ opsE))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The fold over a concatenation is the folds one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Every weakly fair execution terminates with every buffer at the five stretches' folds, one after the other, over
    the launch contents. -/
theorem run_fold (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b)
        = after opsE (after opsD (after opsC (after opsB (after opsA (launchContents m c))))) (Proc.devRef .tc b) :=
  (θ_run defs _ _).mono (fun _ h c b => (h c b).trans (by
      show after ops _ _ = _
      rw [ops_eq, after_append, after_append, after_append, after_append]))
    (run_seq scopedRefs_eq scopedSems_eq defs main (fun _ => ops) main_eq (fun _ => ops_sub) m ρ)

end Cert.ReferenceIdeal.RefRun

end
-- ==== Proof.RefStages.lean ====
import proofs.«115262_j27109833572875_2_alg».proof.Proof.RefRun
import Idealize.ShloMosaic.PureOps.Ideal

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-! # The reference's stretches, each read over an arbitrary valuation

Each stretch's result buffer holds the stretch's operations applied to the buffers the stretch reads. The operations
are named here once, as functions of the arrays they read, so that nothing later has to look inside them. -/

/-- The first aggregation as the program applies it to a 50000 × 128 matrix h: the rows of h gathered at the source
    indices (a negative one wrapped by 50000), scaled by the edge weights, and scatter-added at the destination indices
    into zeros. -/
def agg1 (idx : (⟨S2x1600000, .i32⟩ : BufTy).Contents (Elt Ideal)) (ew : FVec Ideal S1600000 .f32) (h : FVec Ideal S50000x128 .f32) : FVec Ideal S50000x128 .f32 :=
  Host.scatterAdd (F := Ideal) (φ := .f32) scatter_S50000x128_S1600000x1_S1600000x128_1_0_0_1 (broadcastInDim S50000x128 ![] bcast_S_S50000x128 (constant (F := Ideal) S_ .f32 0x00000000#32)) (broadcastInDim S1600000x1 ![0] bcast_S1600000_S1600000x1_0 (shapeCast _ (extractStridedSlice S1x1600000 ![1, 0] idx slices_S2x1600000_S1x1600000_1_0) shapeCasts_S1x1600000_S1600000)) (mulf (F := Ideal) (φ := .f32) (Host.gather gather_S50000x128_S1600000x1_S1600000x128_1_0_n_n_0_1_1128 h (broadcastInDim S1600000x1 ![0] bcast_S1600000_S1600000x1_0 (select (cmpi .slt (shapeCast _ (extractStridedSlice S1x1600000 ![0, 0] idx slices_S2x1600000_S1x1600000_0_0) shapeCasts_S1x1600000_S1600000) (broadcastInDim S1600000 ![] bcast_S_S1600000 (constantI S_ 32 0#32))) (addi (shapeCast _ (extractStridedSlice S1x1600000 ![0, 0] idx slices_S2x1600000_S1x1600000_0_0) shapeCasts_S1x1600000_S1600000) (broadcastInDim S1600000 ![] bcast_S_S1600000 (constantI S_ 32 50000#32))) (shapeCast _ (extractStridedSlice S1x1600000 ![0, 0] idx slices_S2x1600000_S1x1600000_0_0) shapeCasts_S1x1600000_S1600000)))) (broadcastInDim S1600000x128 ![0, 1] bcast_S1600000x1_S1600000x128_0_1 (broadcastInDim S1600000x1 ![0] bcast_S1600000_S1600000x1_0 ew)))

/-- The second aggregation as the program applies it to a 50000 × 40 matrix h: the rows of h gathered at the source
    indices (a negative one wrapped by 50000), scaled by the edge weights, and scatter-added at the destination indices
    into zeros. -/
def agg2 (idx : (⟨S2x1600000, .i32⟩ : BufTy).Contents (Elt Ideal)) (ew : FVec Ideal S1600000 .f32) (h : FVec Ideal S50000x40 .f32) : FVec Ideal S50000x40 .f32 :=
  Host.scatterAdd (F := Ideal) (φ := .f32) scatter_S50000x40_S1600000x1_S1600000x40_1_0_0_1 (broadcastInDim S50000x40 ![] bcast_S_S50000x40 (constant (F := Ideal) S_ .f32 0x00000000#32)) (broadcastInDim S1600000x1 ![0] bcast_S1600000_S1600000x1_0 (shapeCast _ (extractStridedSlice S1x1600000 ![1, 0] idx slices_S2x1600000_S1x1600000_1_0) shapeCasts_S1x1600000_S1600000)) (mulf (F := Ideal) (φ := .f32) (Host.gather gather_S50000x40_S1600000x1_S1600000x40_1_0_n_n_0_1_140 h (broadcastInDim S1600000x1 ![0] bcast_S1600000_S1600000x1_0 (select (cmpi .slt (shapeCast _ (extractStridedSlice S1x1600000 ![0, 0] idx slices_S2x1600000_S1x1600000_0_0) shapeCasts_S1x1600000_S1600000) (broadcastInDim S1600000 ![] bcast_S_S1600000 (constantI S_ 32 0#32))) (addi (shapeCast _ (extractStridedSlice S1x1600000 ![0, 0] idx slices_S2x1600000_S1x1600000_0_0) shapeCasts_S1x1600000_S1600000) (broadcastInDim S1600000 ![] bcast_S_S1600000 (constantI S_ 32 50000#32))) (shapeCast _ (extractStridedSlice S1x1600000 ![0, 0] idx slices_S2x1600000_S1x1600000_0_0) shapeCasts_S1x1600000_S1600000)))) (broadcastInDim S1600000x40 ![0, 1] bcast_S1600000x1_S1600000x40_0_1 (broadcastInDim S1600000x1 ![0] bcast_S1600000_S1600000x1_0 ew)))

/-- The bias b added along the rows of H, the rectifier, and the product with W, as the program's seven operations. -/
def layerC (H : FVec Ideal S50000x128 .f32) (b : FVec Ideal S128 .f32) (W : FVec Ideal S128x40 .f32) : FVec Ideal S50000x40 .f32 :=
  Host.dotGeneral (F := Ideal) (φ₁ := .f32) (φ₂ := .f32) dot_S50000x128_S128x40_S50000x40_1_0_0_1_n_n none
    (maximumf (F := Ideal) (φ := .f32) (addf (F := Ideal) (φ := .f32) H (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))) W

/-- The biased logits: the bias b added along the rows of H. -/
def biased (H : FVec Ideal S50000x40 .f32) (b : FVec Ideal S40 .f32) : FVec Ideal S50000x40 .f32 :=
  addf (F := Ideal) (φ := .f32) H (broadcastInDim S50000x40 ![0, 1] bcast_S1x40_S50000x40_0_1 (broadcastInDim S1x40 ![1] bcast_S40_S1x40_1 b))

/-- The row maxima of x as the program takes them: the reduction by max from −∞ along each row, then once more the
    maximum with −∞. -/
def rowMaxes (x : FVec Ideal S50000x40 .f32) : FVec Ideal S50000 .f32 :=
  maximumf (F := Ideal) (φ := .f32) (broadcastInDim S50000 ![] bcast_S_S50000 (constant (F := Ideal) S_ .f32 0xFF800000#32))
    (Host.reduce (FloatOps.maximumf (F := Ideal) (φ := .f32)) x (constant (F := Ideal) S_ .f32 0xFF800000#32) reducesTo_S50000x40_S50000_d1 h_S_)

/-- x with its row maximum subtracted from every entry. -/
def shifted (x : FVec Ideal S50000x40 .f32) : FVec Ideal S50000x40 .f32 :=
  subf (F := Ideal) (φ := .f32) x (broadcastInDim S50000x40 ![0, 1] bcast_S50000x1_S50000x40_0_1 (broadcastInDim S50000x1 ![0] bcast_S50000_S50000x1_0 (rowMaxes x)))

/-- The row-wise log-softmax of x as the program's fifteen operations: z = x − row maximum, then z − log Σ exp z. -/
def logSoftmaxOps (x : FVec Ideal S50000x40 .f32) : FVec Ideal S50000x40 .f32 :=
  subf (F := Ideal) (φ := .f32) (shifted x) (broadcastInDim S50000x40 ![0, 1] bcast_S50000x1_S50000x40_0_1
    (Host.log (F := Ideal) (φ := .f32) (broadcastInDim S50000x1 ![0] bcast_S50000_S50000x1_0
      (Host.reduceAdd (F := Ideal) (φ := .f32) (Host.exp (F := Ideal) (φ := .f32) (shifted x)) (constant (F := Ideal) S_ .f32 0x00000000#32) reducesTo_S50000x40_S50000_d1 h_S_))))

variable (W : Valuation τ sig (Elt Ideal))

/-- The first stretch leaves the product of the first and third arguments in its result buffer. -/
theorem stageA : after (opsA (F := Ideal)) W (Proc.devRef .tc main_v0)
    = Host.dotGeneral (F := Ideal) (φ₁ := .f32) (φ₂ := .f32) dot_S50000x512_S512x128_S50000x128_1_0_0_1_n_n none (W (Proc.devRef .tc main_arg0) : FVec Ideal S50000x512 .f32) (W (Proc.devRef .tc main_arg2) : FVec Ideal S512x128 .f32) := by
  after_results <;> rfl

set_option maxHeartbeats 4000000 in
/-- The second stretch leaves the first aggregation of the first stretch's result. -/
theorem stageB : after (opsB (F := Ideal)) W (Proc.devRef .tc main_v17)
    = agg1 (W (Proc.devRef .tc main_arg6) : (⟨S2x1600000, .i32⟩ : BufTy).Contents (Elt Ideal)) (W (Proc.devRef .tc main_arg1) : FVec Ideal S1600000 .f32) (W (Proc.devRef .tc main_v0) : FVec Ideal S50000x128 .f32) := by
  after_results <;> rfl

/-- The third stretch leaves the bias, rectifier and second product of the second stretch's result. -/
theorem stageC : after (opsC (F := Ideal)) W (Proc.devRef .tc main_v22)
    = layerC (W (Proc.devRef .tc main_v17) : FVec Ideal S50000x128 .f32) (W (Proc.devRef .tc main_arg3) : FVec Ideal S128 .f32) (W (Proc.devRef .tc main_arg4) : FVec Ideal S128x40 .f32) := by
  after_results <;> rfl

set_option maxHeartbeats 4000000 in
/-- The fourth stretch leaves the second aggregation of the third stretch's result. -/
theorem stageD : after (opsD (F := Ideal)) W (Proc.devRef .tc main_v39)
    = agg2 (W (Proc.devRef .tc main_arg6) : (⟨S2x1600000, .i32⟩ : BufTy).Contents (Elt Ideal)) (W (Proc.devRef .tc main_arg1) : FVec Ideal S1600000 .f32) (W (Proc.devRef .tc main_v22) : FVec Ideal S50000x40 .f32) := by
  after_results <;> rfl

end Cert.ReferenceIdeal.RefValue

end
-- ==== Proof.RefStageE.lean ====
import proofs.«115262_j27109833572875_2_alg».proof.Proof.RefRun
import proofs.«115262_j27109833572875_2_alg».proof.Proof.RefStages

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-! # The fifth stretch: the bias and the row-wise log-softmax

The stretch's eighteen operations fall into four runs — the bias (3), the row maxima (5), the shift by the row maxima
(3), and the exponentials, their row sums, the logarithm and the final subtraction (7). Each run is read over an
arbitrary valuation; put together they are the log-softmax operations applied to the biased logits. The run that takes
the row maxima is read with an arbitrary function in the reduction's place, so that reading it never opens the
reduction. -/

section Pieces
variable {F : FTy → Type} [FloatOps F]

/-- The bias. -/
abbrev opsE1 : List (HloOp τ sig (Elt F)) :=
  [ unary main_arg5 main_v40 (broadcastInDim S1x40 ![1] bcast_S40_S1x40_1 : (⟨S40, .f32⟩ : BufTy).Contents (Elt F) → (⟨S1x40, .f32⟩ : BufTy).Contents (Elt F)),
    unary main_v40 main_v41 (broadcastInDim S50000x40 ![0, 1] bcast_S1x40_S50000x40_0_1 : (⟨S1x40, .f32⟩ : BufTy).Contents (Elt F) → (⟨S50000x40, .f32⟩ : BufTy).Contents (Elt F)),
    binary main_v39 main_v41 main_v42 (addf : (⟨S50000x40, .f32⟩ : BufTy).Contents (Elt F) → (⟨S50000x40, .f32⟩ : BufTy).Contents (Elt F) → (⟨S50000x40, .f32⟩ : BufTy).Contents (Elt F)) ]

/-- The row maxima, with an arbitrary function of the logits and the initial value in the reduction's place. -/
abbrev opsE2G (R : (⟨S50000x40, .f32⟩ : BufTy).Contents (Elt F) → (⟨S_, .f32⟩ : BufTy).Contents (Elt F) → (⟨S50000, .f32⟩ : BufTy).Contents (Elt F)) : List (HloOp τ sig (Elt F)) :=
  [ TRef.nullary (TRef.of (T := ⟨S_, .f32⟩) main_call1_cst) (constant S_ .f32 0xFF800000#32),
    TRef.binary (TRef.of (T := ⟨S50000x40, .f32⟩) main_v42) (TRef.of (T := ⟨S_, .f32⟩) main_call1_cst) (TRef.of (T := ⟨S50000, .f32⟩) main_call1_v0) R,
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf ]
/-- The row maxima. -/
abbrev opsE2 : List (HloOp τ sig (Elt F)) :=
  opsE2G (fun x v => Host.reduce FloatOps.maximumf x v reducesTo_S50000x40_S50000_d1 h_S_)

/-- The shift by the row maxima. -/
abbrev opsE3 : List (HloOp τ sig (Elt F)) :=
  [ TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v42) (TRef.of (T := ⟨S50000x40, .f32⟩) main_call1_v4) (TRef.of (T := ⟨S50000x40, .f32⟩) main_call1_v5) subf ]

/-- The exponentials, their row sums, the logarithm, the subtraction. -/
abbrev opsE4 : List (HloOp τ sig (Elt F)) :=
  [ TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v43) subf ]

theorem opsE_eq : (opsE : List (HloOp τ sig (Elt F))) = opsE1 ++ (opsE2 ++ (opsE3 ++ opsE4)) := rfl

end Pieces

variable (W : Valuation τ sig (Elt Ideal))

theorem stageE1 : after (opsE1 (F := Ideal)) W (Proc.devRef .tc main_v42) = biased (W (Proc.devRef .tc main_v39) : FVec Ideal S50000x40 .f32) (W (Proc.devRef .tc main_arg5) : FVec Ideal S40 .f32) := by
  after_results <;> rfl

theorem stageE2G (R : FVec Ideal S50000x40 .f32 → FVec Ideal S_ .f32 → FVec Ideal S50000 .f32) :
    after (opsE2G (F := Ideal) R) W (Proc.devRef .tc main_call1_v2)
      = maximumf (F := Ideal) (φ := .f32) (broadcastInDim S50000 ![] bcast_S_S50000 (constant (F := Ideal) S_ .f32 0xFF800000#32))
          (R (W (Proc.devRef .tc main_v42) : FVec Ideal S50000x40 .f32) (constant (F := Ideal) S_ .f32 0xFF800000#32)) := by
  after_results <;> rfl

theorem stageE2 : after (opsE2 (F := Ideal)) W (Proc.devRef .tc main_call1_v2) = rowMaxes (W (Proc.devRef .tc main_v42) : FVec Ideal S50000x40 .f32) :=
  stageE2G W (fun x v => Host.reduce (FloatOps.maximumf (F := Ideal) (φ := .f32)) x v reducesTo_S50000x40_S50000_d1 h_S_)

theorem passE2_v42 : after (opsE2 (F := Ideal)) W (Proc.devRef .tc main_v42) = W (Proc.devRef .tc main_v42) := by after_results

theorem stageE3 : after (opsE3 (F := Ideal)) W (Proc.devRef .tc main_call1_v5)
    = subf (F := Ideal) (φ := .f32) (W (Proc.devRef .tc main_v42) : FVec Ideal S50000x40 .f32) (broadcastInDim S50000x40 ![0, 1] bcast_S50000x1_S50000x40_0_1 (broadcastInDim S50000x1 ![0] bcast_S50000_S50000x1_0 (W (Proc.devRef .tc main_call1_v2) : FVec Ideal S50000 .f32))) := by
  after_results <;> rfl

theorem stageE4 : after (opsE4 (F := Ideal)) W (Proc.devRef .tc main_v43)
    = subf (F := Ideal) (φ := .f32) (W (Proc.devRef .tc main_call1_v5) : FVec Ideal S50000x40 .f32) (broadcastInDim S50000x40 ![0, 1] bcast_S50000x1_S50000x40_0_1
        (Host.log (F := Ideal) (φ := .f32) (broadcastInDim S50000x1 ![0] bcast_S50000_S50000x1_0
          (Host.reduceAdd (F := Ideal) (φ := .f32) (Host.exp (F := Ideal) (φ := .f32) (W (Proc.devRef .tc main_call1_v5) : FVec Ideal S50000x40 .f32)) (constant (F := Ideal) S_ .f32 0x00000000#32) reducesTo_S50000x40_S50000_d1 h_S_)))) := by
  after_results <;> rfl

/-- The fifth stretch leaves the row-wise log-softmax of the biased fourth stretch's result. -/
theorem stageE : after (opsE (F := Ideal)) W (Proc.devRef .tc main_v43)
    = logSoftmaxOps (biased (W (Proc.devRef .tc main_v39) : FVec Ideal S50000x40 .f32) (W (Proc.devRef .tc main_arg5) : FVec Ideal S40 .f32)) := by
  rw [opsE_eq, after_append, after_append, after_append, stageE4, stageE3, passE2_v42, stageE2, stageE1]
  generalize biased (W (Proc.devRef .tc main_v39) : FVec Ideal S50000x40 .f32) (W (Proc.devRef .tc main_arg5) : FVec Ideal S40 .f32) = x
  rfl

end Cert.ReferenceIdeal.RefValue

end
-- ==== Proof.RefPass.lean ====
import proofs.«115262_j27109833572875_2_alg».proof.Proof.RefRun
import Idealize.ShloMosaic.PureOps.Ideal

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-! # What a stretch does not write

None of the five stretches writes any of the program's seven arguments: after a stretch each argument's buffer holds
what it held before. -/

variable (W : Valuation τ sig (Elt Ideal))

theorem passA_arg0 : after (opsA (F := Ideal)) W (Proc.devRef .tc main_arg0) = W (Proc.devRef .tc main_arg0) := by after_results
theorem passA_arg1 : after (opsA (F := Ideal)) W (Proc.devRef .tc main_arg1) = W (Proc.devRef .tc main_arg1) := by after_results
theorem passA_arg2 : after (opsA (F := Ideal)) W (Proc.devRef .tc main_arg2) = W (Proc.devRef .tc main_arg2) := by after_results
theorem passA_arg3 : after (opsA (F := Ideal)) W (Proc.devRef .tc main_arg3) = W (Proc.devRef .tc main_arg3) := by after_results
theorem passA_arg4 : after (opsA (F := Ideal)) W (Proc.devRef .tc main_arg4) = W (Proc.devRef .tc main_arg4) := by after_results
theorem passA_arg5 : after (opsA (F := Ideal)) W (Proc.devRef .tc main_arg5) = W (Proc.devRef .tc main_arg5) := by after_results
theorem passA_arg6 : after (opsA (F := Ideal)) W (Proc.devRef .tc main_arg6) = W (Proc.devRef .tc main_arg6) := by after_results

set_option maxHeartbeats 4000000 in
theorem passB_arg0 : after (opsB (F := Ideal)) W (Proc.devRef .tc main_arg0) = W (Proc.devRef .tc main_arg0) := by after_results
set_option maxHeartbeats 4000000 in
theorem passB_arg1 : after (opsB (F := Ideal)) W (Proc.devRef .tc main_arg1) = W (Proc.devRef .tc main_arg1) := by after_results
set_option maxHeartbeats 4000000 in
theorem passB_arg2 : after (opsB (F := Ideal)) W (Proc.devRef .tc main_arg2) = W (Proc.devRef .tc main_arg2) := by after_results
set_option maxHeartbeats 4000000 in
theorem passB_arg3 : after (opsB (F := Ideal)) W (Proc.devRef .tc main_arg3) = W (Proc.devRef .tc main_arg3) := by after_results
set_option maxHeartbeats 4000000 in
theorem passB_arg4 : after (opsB (F := Ideal)) W (Proc.devRef .tc main_arg4) = W (Proc.devRef .tc main_arg4) := by after_results
set_option maxHeartbeats 4000000 in
theorem passB_arg5 : after (opsB (F := Ideal)) W (Proc.devRef .tc main_arg5) = W (Proc.devRef .tc main_arg5) := by after_results
set_option maxHeartbeats 4000000 in
theorem passB_arg6 : after (opsB (F := Ideal)) W (Proc.devRef .tc main_arg6) = W (Proc.devRef .tc main_arg6) := by after_results

theorem passC_arg0 : after (opsC (F := Ideal)) W (Proc.devRef .tc main_arg0) = W (Proc.devRef .tc main_arg0) := by after_results
theorem passC_arg1 : after (opsC (F := Ideal)) W (Proc.devRef .tc main_arg1) = W (Proc.devRef .tc main_arg1) := by after_results
theorem passC_arg2 : after (opsC (F := Ideal)) W (Proc.devRef .tc main_arg2) = W (Proc.devRef .tc main_arg2) := by after_results
theorem passC_arg3 : after (opsC (F := Ideal)) W (Proc.devRef .tc main_arg3) = W (Proc.devRef .tc main_arg3) := by after_results
theorem passC_arg4 : after (opsC (F := Ideal)) W (Proc.devRef .tc main_arg4) = W (Proc.devRef .tc main_arg4) := by after_results
theorem passC_arg5 : after (opsC (F := Ideal)) W (Proc.devRef .tc main_arg5) = W (Proc.devRef .tc main_arg5) := by after_results
theorem passC_arg6 : after (opsC (F := Ideal)) W (Proc.devRef .tc main_arg6) = W (Proc.devRef .tc main_arg6) := by after_results

set_option maxHeartbeats 4000000 in
theorem passD_arg0 : after (opsD (F := Ideal)) W (Proc.devRef .tc main_arg0) = W (Proc.devRef .tc main_arg0) := by after_results
set_option maxHeartbeats 4000000 in
theorem passD_arg1 : after (opsD (F := Ideal)) W (Proc.devRef .tc main_arg1) = W (Proc.devRef .tc main_arg1) := by after_results
set_option maxHeartbeats 4000000 in
theorem passD_arg2 : after (opsD (F := Ideal)) W (Proc.devRef .tc main_arg2) = W (Proc.devRef .tc main_arg2) := by after_results
set_option maxHeartbeats 4000000 in
theorem passD_arg3 : after (opsD (F := Ideal)) W (Proc.devRef .tc main_arg3) = W (Proc.devRef .tc main_arg3) := by after_results
set_option maxHeartbeats 4000000 in
theorem passD_arg4 : after (opsD (F := Ideal)) W (Proc.devRef .tc main_arg4) = W (Proc.devRef .tc main_arg4) := by after_results
set_option maxHeartbeats 4000000 in
theorem passD_arg5 : after (opsD (F := Ideal)) W (Proc.devRef .tc main_arg5) = W (Proc.devRef .tc main_arg5) := by after_results
set_option maxHeartbeats 4000000 in
theorem passD_arg6 : after (opsD (F := Ideal)) W (Proc.devRef .tc main_arg6) = W (Proc.devRef .tc main_arg6) := by after_results

set_option maxHeartbeats 4000000 in
theorem passE_arg0 : after (opsE (F := Ideal)) W (Proc.devRef .tc main_arg0) = W (Proc.devRef .tc main_arg0) := by after_results
set_option maxHeartbeats 4000000 in
theorem passE_arg1 : after (opsE (F := Ideal)) W (Proc.devRef .tc main_arg1) = W (Proc.devRef .tc main_arg1) := by after_results
set_option maxHeartbeats 4000000 in
theorem passE_arg2 : after (opsE (F := Ideal)) W (Proc.devRef .tc main_arg2) = W (Proc.devRef .tc main_arg2) := by after_results
set_option maxHeartbeats 4000000 in
theorem passE_arg3 : after (opsE (F := Ideal)) W (Proc.devRef .tc main_arg3) = W (Proc.devRef .tc main_arg3) := by after_results
set_option maxHeartbeats 4000000 in
theorem passE_arg4 : after (opsE (F := Ideal)) W (Proc.devRef .tc main_arg4) = W (Proc.devRef .tc main_arg4) := by after_results
set_option maxHeartbeats 4000000 in
theorem passE_arg5 : after (opsE (F := Ideal)) W (Proc.devRef .tc main_arg5) = W (Proc.devRef .tc main_arg5) := by after_results
set_option maxHeartbeats 4000000 in
theorem passE_arg6 : after (opsE (F := Ideal)) W (Proc.devRef .tc main_arg6) = W (Proc.devRef .tc main_arg6) := by after_results

end Cert.ReferenceIdeal.RefValue

end
-- ==== Proof.LibHostProduct.lean ====
/-
  A plain matrix product computed on the host, read at one entry.

  For a matrix `l` of shape `[M, K]` and a matrix `r` of shape `[K, N]`, contracted over `l`'s second axis and `r`'s first,
  the host's product has no accumulator: its entry `(p, c)` on the extended reals is `∑ k, l[p, k] · r[k, c]`. The
  contraction index has a single axis of extent `K` and is traded for its one coordinate `k`, and the operand indices at
  the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.HostProduct

open Idealize.ShloMosaic Idealize.ShloMosaic.ValueIdx

/-- Entry `(p, c)` of the host's `[M, K]` by `[K, N]` product is `∑ k, l[p, k] · r[k, c]`, for any dimension numbers `D`
    whose contraction has the one axis of extent `K` and whose operand indices read `(p, k)` and `(k, c)`. -/
theorem dotGeneral_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    Host.dotGeneral (F := Ideal) D none l r (ix2 p c) = ∑ k : Fin K, l (ix2 p k) * r (ix2 k c) := by
  show FloatOps.dotGeneral D none .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.HostProduct

end
-- ==== Proof.RefIndex.lean ====
/-
  The reference's dense layers, index by index.

  The host's product of an M × K by a K × N matrix has entry (p, q) equal to Σₖ l[p, k] · r[k, q], which is the
  specification's product; the bias broadcast along the rows, added, and cut off below at zero is the specification's
  rectified bias. So the first stretch computes X · W1 and the third computes relu(H + b1) · W2.
-/
import proofs.«115262_j27109833572875_2_alg».proof.Proof.RefStages
import proofs.«115262_j27109833572875_2_alg».proof.Proof.Spec
import proofs.«115262_j27109833572875_2_alg».proof.Proof.LibHostProduct
import Idealize.ShloMosaic.Lib.Pipeline.Value
import Idealize.ShloMosaic.Lib.ValueIdx

noncomputable section

namespace Cert.ReferenceIdeal.RefValue

open Cert.ReferenceIdeal Cert.ReferenceIdeal.Gen Cert.GcnSpec Idealize.ShloMosaic Idealize.ShloMosaic.ValueIdx

/-- The dimension numbers of the two products: the left operand's axis 1 against the right operand's axis 0. -/
abbrev D1 : DotDims S50000x512 S512x128 S50000x128 := dot_S50000x512_S512x128_S50000x128_1_0_0_1_n_n
abbrev D2 : DotDims S50000x128 S128x40 S50000x40 := dot_S50000x128_S128x40_S50000x40_1_0_0_1_n_n

theorem d1_lhs0 (i : S50000x128.Idx) (q : D1.contr.Idx) : (D1.lhsIdx i q 0).val = (i 0).val := by
  unfold DotDims.lhsIdx
  rw [dif_neg (show ¬(0 : Fin S50000x512.rank) ∈ D1.lhsBatch by decide), dif_pos (show (0 : Fin S50000x512.rank) ∈ D1.lhsNonContracting by decide)]
  rfl
theorem d1_lhs1 (i : S50000x128.Idx) (q : D1.contr.Idx) : (D1.lhsIdx i q 1).val = (q ⟨0, by decide⟩).val :=
  D1.lhsIdx_val_of_single rfl i q
theorem d1_rhs0 (i : S50000x128.Idx) (q : D1.contr.Idx) : (D1.rhsIdx i q 0).val = (q ⟨0, by decide⟩).val :=
  D1.rhsIdx_val_of_single rfl i q
theorem d1_rhs1 (i : S50000x128.Idx) (q : D1.contr.Idx) : (D1.rhsIdx i q 1).val = (i 1).val := by
  unfold DotDims.rhsIdx
  rw [dif_neg (show ¬(1 : Fin S512x128.rank) ∈ D1.rhsBatch by decide), dif_pos (show (1 : Fin S512x128.rank) ∈ D1.rhsNonContracting by decide)]
  rfl

theorem d2_lhs0 (i : S50000x40.Idx) (q : D2.contr.Idx) : (D2.lhsIdx i q 0).val = (i 0).val := by
  unfold DotDims.lhsIdx
  rw [dif_neg (show ¬(0 : Fin S50000x128.rank) ∈ D2.lhsBatch by decide), dif_pos (show (0 : Fin S50000x128.rank) ∈ D2.lhsNonContracting by decide)]
  rfl
theorem d2_lhs1 (i : S50000x40.Idx) (q : D2.contr.Idx) : (D2.lhsIdx i q 1).val = (q ⟨0, by decide⟩).val :=
  D2.lhsIdx_val_of_single rfl i q
theorem d2_rhs0 (i : S50000x40.Idx) (q : D2.contr.Idx) : (D2.rhsIdx i q 0).val = (q ⟨0, by decide⟩).val :=
  D2.rhsIdx_val_of_single rfl i q
theorem d2_rhs1 (i : S50000x40.Idx) (q : D2.contr.Idx) : (D2.rhsIdx i q 1).val = (i 1).val := by
  unfold DotDims.rhsIdx
  rw [dif_neg (show ¬(1 : Fin S128x40.rank) ∈ D2.rhsBatch by decide), dif_pos (show (1 : Fin S128x40.rank) ∈ D2.rhsNonContracting by decide)]
  rfl

/-- The first product is the specification's. -/
theorem prod1_eq (X : FVec Ideal S50000x512 .f32) (W : FVec Ideal S512x128 .f32) :
    Host.dotGeneral (F := Ideal) (φ₁ := .f32) (φ₂ := .f32) dot_S50000x512_S512x128_S50000x128_1_0_0_1_n_n none X W = prod X W := by
  funext i
  obtain ⟨p, q, rfl⟩ : ∃ (p : Fin 50000) (q : Fin 128), i = ix2 p q := ⟨rowOf i, colOf i, eq_row_col i⟩
  exact Cert.HostProduct.dotGeneral_entry D1 rfl rfl d1_lhs0 d1_lhs1 d1_rhs0 d1_rhs1 X W p q

/-- The second product is the specification's. -/
theorem prod2_eq (H : FVec Ideal S50000x128 .f32) (W : FVec Ideal S128x40 .f32) :
    Host.dotGeneral (F := Ideal) (φ₁ := .f32) (φ₂ := .f32) dot_S50000x128_S128x40_S50000x40_1_0_0_1_n_n none H W = prod H W := by
  funext i
  obtain ⟨p, q, rfl⟩ : ∃ (p : Fin 50000) (q : Fin 40), i = ix2 p q := ⟨rowOf i, colOf i, eq_row_col i⟩
  exact Cert.HostProduct.dotGeneral_entry D2 rfl rfl d2_lhs0 d2_lhs1 d2_rhs0 d2_rhs1 H W p q

/-- The bias broadcast to a row and then down the rows reads b[q] at entry (p, q). -/
theorem bias128_apply (b : FVec Ideal S128 .f32) (p : Fin 50000) (q : Fin 128) :
    broadcastInDim S50000x128 ![0, 1] bcast_S1x128_S50000x128_0_1 (broadcastInDim S1x128 ![1] bcast_S128_S1x128_1 b) (ix2 p q) = b (ix1 q) :=
  (broadcastInDim_apply _ bcast_S1x128_S50000x128_0_1 (broadcastInDim S1x128 ![1] bcast_S128_S1x128_1 b) (ix2 p q) (ix2 (0 : Fin 1) q) (fun a => match a with
    | ⟨0, _⟩ => by show (0 : ℕ) = if (1 : ℕ) = 1 then 0 else p.val; rw [if_pos rfl]
    | ⟨1, _⟩ => by show q.val = if (128 : ℕ) = 1 then 0 else q.val; rw [if_neg (by decide)])).trans
  (broadcastInDim_apply _ bcast_S128_S1x128_1 b (ix2 (0 : Fin 1) q) (ix1 q) (fun a => match a with
    | ⟨0, _⟩ => by show q.val = if (128 : ℕ) = 1 then 0 else q.val; rw [if_neg (by decide)]))

/-- The zero splat reads the f32 zero word's value everywhere. -/
theorem zero128_apply (p : Fin 50000) (q : Fin 128) :
    broadcastInDim S50000x128 ![] bcast_S_S50000x128 (constant (F := Ideal) S_ .f32 0x00000000#32) (ix2 p q) = Ideal.ofBits .f32 0x00000000#32 :=
  broadcastInDim_apply _ bcast_S_S50000x128 (constant (F := Ideal) S_ .f32 0x00000000#32) (ix2 p q) ix0 (fun a => a.elim0)

/-- The bias added along the rows and the rectifier are the specification's. -/
theorem biasRelu_eq (H : FVec Ideal S50000x128 .f32) (b : FVec Ideal S128 .f32) :
    maximumf (F := Ideal) (φ := .f32) (addf (F := Ideal) (φ := .f32) H (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32)) = biasRelu H b := by
  funext i
  obtain ⟨p, q, rfl⟩ : ∃ (p : Fin 50000) (q : Fin 128), i = ix2 p q := ⟨rowOf i, colOf i, eq_row_col i⟩
  show max (H (ix2 p q) + broadcastInDim S50000x128 ![0, 1] bcast_S1x128_S50000x128_0_1 (broadcastInDim S1x128 ![1] bcast_S128_S1x128_1 b) (ix2 p q))
      (broadcastInDim S50000x128 ![] bcast_S_S50000x128 (constant (F := Ideal) S_ .f32 0x00000000#32) (ix2 p q))
    = max (H (ix2 p q) + b (ix1 q)) (Ideal.ofBits .f32 0x00000000#32)
  rw [bias128_apply b p q, zero128_apply p q]

/-- The third stretch's operations are the specification's rectified bias followed by its product. -/
theorem layerC_eq (H : FVec Ideal S50000x128 .f32) (b : FVec Ideal S128 .f32) (W : FVec Ideal S128x40 .f32) :
    layerC H b W = prod (biasRelu H b) W :=
  (congrArg (fun Z : FVec Ideal S50000x128 .f32 => Host.dotGeneral (F := Ideal) (φ₁ := .f32) (φ₂ := .f32) dot_S50000x128_S128x40_S50000x40_1_0_0_1_n_n none Z W)
    (biasRelu_eq H b)).trans (prod2_eq (biasRelu H b) W)

end Cert.ReferenceIdeal.RefValue

end
-- ==== Proof.LibHostLayout.lean ====
/-
  The host's broadcasts of a vector along the rows or along the columns of a matrix, read at an entry.

  A length-a vector placed as an a × 1 column and that column repeated across b columns holds, at (p, c), the vector's
  entry p. A length-b vector placed as a 1 × b row and that row repeated down a rows holds, at (p, c), the vector's
  entry c. These are the forms a per-row quantity (a row maximum, a row sum) and a bias take when they are combined
  with a matrix entry by entry.
-/
import Idealize.ShloMosaic.Lib.Pipeline.Value
import Idealize.ShloMosaic.Lib.ValueIdx

namespace Cert.HostLayout

open Idealize.ShloMosaic Idealize.ShloMosaic.ValueIdx

variable {α : Type}

/-- An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[1, b]` row broadcast in dimensions (0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A rank-0 array broadcast to any shape reads, everywhere, its one entry. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.HostLayout
-- ==== Proof.RefSoftmax.lean ====
/-
  The reference's bias and row-wise log-softmax, read entry by entry.

  The reference adds the bias along the rows, takes each row's maximum as a reduction by max from −∞ (and then once more
  the maximum with −∞, which changes nothing: −∞ is the least extended real), subtracts it, and subtracts the logarithm
  of the row's sum of exponentials, the sum started from zero. Entry (r, c) is therefore z[r, c] − log Σₖ exp z[r, k]
  with z = x − (the fold of max from −∞ over row r of x) and x[r, c] = H[r, c] + b[c].
-/
import proofs.«115262_j27109833572875_2_alg».proof.Proof.RefStages
import proofs.«115262_j27109833572875_2_alg».proof.Proof.Spec
import proofs.«115262_j27109833572875_2_alg».proof.Proof.LibHostLayout
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.GcnSpec
open Idealize.ShloMosaic Idealize.ShloMosaic.TcCoe Idealize.ShloMosaic.ValueIdx Idealize.SL.Sem

/-- The f32 word of −∞ is the least extended real. -/
theorem ninf_eq_bot : Ideal.ofBits .f32 0xFF800000#32 = (⊥ : EReal) := by simp [Ideal.ofBits, Ideal.ieee]

theorem max_ninf (y : EReal) : max (Ideal.ofBits .f32 0xFF800000#32) y = y := by
  rw [ninf_eq_bot]; exact max_eq_right bot_le

theorem biased_apply (H : FVec Ideal S50000x40 .f32) (b : FVec Ideal S40 .f32) (r : Fin 50000) (c : Fin 40) :
    biased H b (ix2 r c) = H (ix2 r c) + b (ix1 c) := by
  unfold biased
  show H (ix2 r c) + broadcastInDim S50000x40 ![0, 1] bcast_S1x40_S50000x40_0_1 (broadcastInDim S1x40 ![1] bcast_S40_S1x40_1 b) (ix2 r c) = _
  rw [Cert.HostLayout.broadcastInDim_1b_ab_apply, Cert.HostLayout.broadcastInDim_b_1b_apply]

/-- The biased logits are the specification's. -/
theorem biased_eq (H : FVec Ideal S50000x40 .f32) (b : FVec Ideal S40 .f32) : biased H b = addBias H b :=
  funext fun i => by
    obtain ⟨r, c, rfl⟩ : ∃ (r : Fin 50000) (c : Fin 40), i = ix2 r c := ⟨i 0, i 1, eq_ix2 i⟩
    exact biased_apply H b r c

/-- The witness that summing or maximising a 50000 × 40 array over axis 1 leaves a length-50000 array. -/
theorem hR : S50000x40.Reduces [1] S50000 := by decide

theorem lift_eq (r : Fin 50000) (k : Fin 40) : hR.lift (ix1 r) k = ix2 r k :=
  funext fun a => Fin.ext (by match a with | ⟨0, _⟩ => rfl | ⟨1, _⟩ => rfl)

/-- The host's reduction by max from −∞ along axis 1, at row r: the fold of max from −∞ over the row. -/
theorem hostRowMax_apply (x : FVec Ideal S50000x40 .f32) (r : Fin 50000) :
    Host.reduce (FloatOps.maximumf (F := Ideal) (φ := .f32)) x (constant (F := Ideal) S_ .f32 0xFF800000#32)
      reducesTo_S50000x40_S50000_d1 h_S_ (ix1 r) = rowMax x r := by
  refine (Host.reduce_eq_fold_single (FloatOps.maximumf (F := Ideal) (φ := .f32)) x
    (constant (F := Ideal) S_ .f32 0xFF800000#32) reducesTo_S50000x40_S50000_d1 hR h_S_ (ix1 r)).trans ?_
  have e : (x ∘ hR.lift (ix1 r)) = fun k : Fin 40 => x (ix2 r k) := funext fun k => congrArg x (lift_eq r k)
  rw [e]
  rfl

/-- The program's row maximum at row r is the fold of max from −∞ over the row: the second maximum with −∞ changes
    nothing. -/
theorem rowMaxes_apply (x : FVec Ideal S50000x40 .f32) (r : Fin 50000) : rowMaxes x (ix1 r) = rowMax x r := by
  unfold rowMaxes
  rw [maximumf_apply, Cert.HostLayout.broadcastInDim_scalar_apply, hostRowMax_apply]
  exact max_ninf _

theorem shifted_apply (x : FVec Ideal S50000x40 .f32) (r : Fin 50000) (c : Fin 40) :
    shifted x (ix2 r c) = x (ix2 r c) - rowMax x r := by
  unfold shifted
  rw [subf_apply, Cert.HostLayout.broadcastInDim_a1_ab_apply, Cert.HostLayout.broadcastInDim_a_a1_apply, rowMaxes_apply]

/-- The program's row sum of exponentials at row r, started from the zero word. -/
theorem rowSum_apply (z : FVec Ideal S50000x40 .f32) (r : Fin 50000) :
    Host.reduceAdd (F := Ideal) (φ := .f32) (Host.exp (F := Ideal) (φ := .f32) z) (constant (F := Ideal) S_ .f32 0x00000000#32)
      reducesTo_S50000x40_S50000_d1 h_S_ (ix1 r) = ∑ k : Fin 40, Ideal.exp (z (ix2 r k)) := by
  simp only [Host.reduceAdd, Ideal.hostReduceAdd_def]
  rw [Ideal.hostReduceAdd_single reducesTo_S50000x40_S50000_d1 hR]
  show Ideal.ofBits .f32 0x00000000#32 + _ = _
  rw [Ideal.ofBits_zero_f32, zero_add]
  exact Finset.sum_congr rfl fun k _ => congrArg (fun i => Ideal.exp (z i)) (lift_eq r k)

/-- The host's logarithm of a column, read at an entry. -/
theorem hostLog_apply (v : FVec Ideal S50000x1 .f32) (i : S50000x1.Idx) :
    Host.log (F := Ideal) (φ := .f32) v i = Ideal.log (v i) := rfl

theorem logSoftmaxOps_apply (x : FVec Ideal S50000x40 .f32) (r : Fin 50000) (c : Fin 40) :
    logSoftmaxOps x (ix2 r c) = logSoftmax x (ix2 r c) := by
  unfold logSoftmaxOps
  rw [subf_apply, Cert.HostLayout.broadcastInDim_a1_ab_apply, hostLog_apply,
    Cert.HostLayout.broadcastInDim_a_a1_apply, rowSum_apply]
  simp only [shifted_apply]
  rfl

/-- The reference's bias and log-softmax are the specification's. -/
theorem softmax_eq (H : FVec Ideal S50000x40 .f32) (b : FVec Ideal S40 .f32) :
    logSoftmaxOps (biased H b) = logSoftmax (addBias H b) := by
  rw [biased_eq]
  exact funext fun i => by
    obtain ⟨r, c, rfl⟩ : ∃ (r : Fin 50000) (c : Fin 40), i = ix2 r c := ⟨i 0, i 1, eq_ix2 i⟩
    exact logSoftmaxOps_apply _ r c

end Cert.ReferenceIdeal.RefValue

end
-- ==== Proof.RefValue.lean ====
/-
  The reference's run, as the specification's network.

  The reference's five stretches, one after the other over the launch contents, leave in the result buffer the product
  X · W1, its first aggregation, the rectified bias and the product with W2, the second aggregation, and the row-wise
  log-softmax of the biased result: the specification's network, the two aggregations being the program's own
  operations. No stretch writes an argument.
-/
import proofs.«115262_j27109833572875_2_alg».proof.Proof.RefStages
import proofs.«115262_j27109833572875_2_alg».proof.Proof.RefStageE
import proofs.«115262_j27109833572875_2_alg».proof.Proof.RefPass
import proofs.«115262_j27109833572875_2_alg».proof.Proof.RefIndex
import proofs.«115262_j27109833572875_2_alg».proof.Proof.RefSoftmax

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-! ## The five stretches one after the other -/

variable (L : Valuation τ sig (Elt Ideal))

theorem chain_arg0 : after (opsE (F := Ideal)) (after (opsD (F := Ideal)) (after (opsC (F := Ideal)) (after (opsB (F := Ideal)) (after (opsA (F := Ideal)) L)))) (Proc.devRef .tc main_arg0) = L (Proc.devRef .tc main_arg0) := by
  rw [passE_arg0, passD_arg0, passC_arg0, passB_arg0, passA_arg0]
theorem chain_arg1 : after (opsE (F := Ideal)) (after (opsD (F := Ideal)) (after (opsC (F := Ideal)) (after (opsB (F := Ideal)) (after (opsA (F := Ideal)) L)))) (Proc.devRef .tc main_arg1) = L (Proc.devRef .tc main_arg1) := by
  rw [passE_arg1, passD_arg1, passC_arg1, passB_arg1, passA_arg1]
theorem chain_arg2 : after (opsE (F := Ideal)) (after (opsD (F := Ideal)) (after (opsC (F := Ideal)) (after (opsB (F := Ideal)) (after (opsA (F := Ideal)) L)))) (Proc.devRef .tc main_arg2) = L (Proc.devRef .tc main_arg2) := by
  rw [passE_arg2, passD_arg2, passC_arg2, passB_arg2, passA_arg2]
theorem chain_arg3 : after (opsE (F := Ideal)) (after (opsD (F := Ideal)) (after (opsC (F := Ideal)) (after (opsB (F := Ideal)) (after (opsA (F := Ideal)) L)))) (Proc.devRef .tc main_arg3) = L (Proc.devRef .tc main_arg3) := by
  rw [passE_arg3, passD_arg3, passC_arg3, passB_arg3, passA_arg3]
theorem chain_arg4 : after (opsE (F := Ideal)) (after (opsD (F := Ideal)) (after (opsC (F := Ideal)) (after (opsB (F := Ideal)) (after (opsA (F := Ideal)) L)))) (Proc.devRef .tc main_arg4) = L (Proc.devRef .tc main_arg4) := by
  rw [passE_arg4, passD_arg4, passC_arg4, passB_arg4, passA_arg4]
theorem chain_arg5 : after (opsE (F := Ideal)) (after (opsD (F := Ideal)) (after (opsC (F := Ideal)) (after (opsB (F := Ideal)) (after (opsA (F := Ideal)) L)))) (Proc.devRef .tc main_arg5) = L (Proc.devRef .tc main_arg5) := by
  rw [passE_arg5, passD_arg5, passC_arg5, passB_arg5, passA_arg5]
theorem chain_arg6 : after (opsE (F := Ideal)) (after (opsD (F := Ideal)) (after (opsC (F := Ideal)) (after (opsB (F := Ideal)) (after (opsA (F := Ideal)) L)))) (Proc.devRef .tc main_arg6) = L (Proc.devRef .tc main_arg6) := by
  rw [passE_arg6, passD_arg6, passC_arg6, passB_arg6, passA_arg6]

/-- After the five stretches the result buffer holds the network of the specification, applied to the arguments. -/
theorem chain_v43 : after (opsE (F := Ideal)) (after (opsD (F := Ideal)) (after (opsC (F := Ideal)) (after (opsB (F := Ideal)) (after (opsA (F := Ideal)) L)))) (Proc.devRef .tc main_v43)
    = Cert.GcnSpec.gcn (Nn := 50000) (Fi := 512) (Hd := 128) (Cl := 40) (agg1 (L (Proc.devRef .tc main_arg6) : (⟨S2x1600000, .i32⟩ : BufTy).Contents (Elt Ideal)) (L (Proc.devRef .tc main_arg1) : FVec Ideal S1600000 .f32)) (agg2 (L (Proc.devRef .tc main_arg6) : (⟨S2x1600000, .i32⟩ : BufTy).Contents (Elt Ideal)) (L (Proc.devRef .tc main_arg1) : FVec Ideal S1600000 .f32))
        (L (Proc.devRef .tc main_arg0) : FVec Ideal S50000x512 .f32) (L (Proc.devRef .tc main_arg2) : FVec Ideal S512x128 .f32) (L (Proc.devRef .tc main_arg3) : FVec Ideal S128 .f32) (L (Proc.devRef .tc main_arg4) : FVec Ideal S128x40 .f32) (L (Proc.devRef .tc main_arg5) : FVec Ideal S40 .f32) := by
  rw [stageE, passD_arg5, passC_arg5, passB_arg5, passA_arg5,
    stageD, passC_arg6, passB_arg6, passA_arg6, passC_arg1, passB_arg1, passA_arg1,
    stageC, passB_arg3, passA_arg3, passB_arg4, passA_arg4,
    stageB, passA_arg6, passA_arg1, stageA,
    softmax_eq, layerC_eq, prod1_eq]
  rfl

/-! ## The run -/

/-- Every weakly fair execution of the reference terminates with its result buffer at the specification's network of the
    seven arguments, the two aggregations being the program's own (`agg1`, `agg2`), and with the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43)
          = Cert.GcnSpec.gcn (agg1 (m ((c.tc : Thread nD τ).loc main_arg6)) (m ((c.tc : Thread nD τ).loc main_arg1))) (agg2 (m ((c.tc : Thread nD τ).loc main_arg6)) (m ((c.tc : Thread nD τ).loc main_arg1)))
              (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6) :=
  (θ_run defs _ _).mono (fun _ h c => ⟨(h c main_v43).trans (chain_v43 (launchContents m c)),
      (h c main_arg0).trans (chain_arg0 (launchContents m c)),
      (h c main_arg1).trans (chain_arg1 (launchContents m c)),
      (h c main_arg2).trans (chain_arg2 (launchContents m c)),
      (h c main_arg3).trans (chain_arg3 (launchContents m c)),
      (h c main_arg4).trans (chain_arg4 (launchContents m c)),
      (h c main_arg5).trans (chain_arg5 (launchContents m c)),
      (h c main_arg6).trans (chain_arg6 (launchContents m c))⟩)
    (RefRun.run_fold (F := Ideal) m ρ)

end Cert.ReferenceIdeal.RefValue

end
-- ==== Proof.lean ====
/-
  A two-layer graph convolution — log_softmax (A (relu (A (X · W1) + b1) · W2) + b2), with A a sparse aggregation
  (gather rows by source node, scale by the edge weight, scatter-add by destination node) — as a kernel of three
  launches among host operations, against the same formula written with whole-array host operations.

  On the extended reals the two programs compute one function of their arguments. The kernel's dense steps run on ten
  blocks of 5000 rows: a product of a row block with a whole matrix is that row block of the whole product; the bias, the
  rectifier and the log-softmax act on each row by itself; and rounding a weight matrix to bf16 changes nothing there. The
  reference's products are the same sums over the contracted axis, its row maximum the same fold of max from −∞ (taking
  the maximum with −∞ once more changes nothing) and its row sum the same sum after the zero it starts from. The two
  aggregations are the same twenty host operations in both programs and are carried as they stand. No step needs the
  inputs to be finite.

  The three frames: the two kernels' are the launch-by-launch frames over their segments; the reference's is its run with
  the result forgotten. The idealization rewrote no operation, so there is nothing to preserve.
-/
import proofs.«115262_j27109833572875_2_alg».proof.Defs
import proofs.«115262_j27109833572875_2_alg».proof.Proof.Gen.Kernel
import proofs.«115262_j27109833572875_2_alg».proof.Proof.Gen.Kernel.Frame
import proofs.«115262_j27109833572875_2_alg».proof.Proof.Gen.KernelIdeal
import proofs.«115262_j27109833572875_2_alg».proof.Proof.Gen.KernelIdeal.Frame
import proofs.«115262_j27109833572875_2_alg».proof.Proof.Gen.ReferenceIdeal
import proofs.«115262_j27109833572875_2_alg».proof.Proof.Gen.Pre_finite_inputs
import proofs.«115262_j27109833572875_2_alg».proof.Proof.Spec
import proofs.«115262_j27109833572875_2_alg».proof.Proof.KernelRun
import proofs.«115262_j27109833572875_2_alg».proof.Proof.KernelValue
import proofs.«115262_j27109833572875_2_alg».proof.Proof.RefValue
import Idealize.ShloMosaic.Adequacy
import Idealize.ShloMosaic.Init

noncomputable section

namespace Cert.Proof

open Idealize.ShloMosaic Idealize.ShloMosaic.TcCoe Idealize.SL.Sem

/-- The two programs' aggregations are one function: the same host operations on the same shapes. -/
theorem agg1_eq (idx : IVec Cert.KernelIdeal.S2x1600000 32) (ew : FVec Ideal Cert.KernelIdeal.S1600000 .f32) (h : FVec Ideal Cert.KernelIdeal.S50000x128 .f32) :
    Cert.ReferenceIdeal.RefValue.agg1 idx ew h = Cert.KernelIdeal.KernelValue.agg1 idx ew h := rfl
theorem agg2_eq (idx : IVec Cert.KernelIdeal.S2x1600000 32) (ew : FVec Ideal Cert.KernelIdeal.S1600000 .f32) (h : FVec Ideal Cert.KernelIdeal.S50000x40 .f32) :
    Cert.ReferenceIdeal.RefValue.agg2 idx ew h = Cert.KernelIdeal.KernelValue.agg2 idx ew h := rfl

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run_value m ρ)

/-- Both runs end at the network's value of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.GcnSpec.gcn (Cert.KernelIdeal.KernelValue.agg1 (m ((c.tc : Thread Cert.KernelIdeal.nD Cert.KernelIdeal.τ).loc Cert.KernelIdeal.main_arg6)) (m ((c.tc : Thread Cert.KernelIdeal.nD Cert.KernelIdeal.τ).loc Cert.KernelIdeal.main_arg1)))
      (Cert.KernelIdeal.KernelValue.agg2 (m ((c.tc : Thread Cert.KernelIdeal.nD Cert.KernelIdeal.τ).loc Cert.KernelIdeal.main_arg6)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.last_value m ρ c), (h c).2⟩)
      (Cert.KernelIdeal.ValueRun.run_last (F := Ideal) m ρ)
  · refine (θ_run Cert.ReferenceIdeal.defs _ _).mono (fun r h c => ⟨(h c).1.trans ?_, (h c).2⟩) (Cert.ReferenceIdeal.RefValue.run_value m' ρ')
    obtain ⟨a0, a1, a2, a3, a4, a5, a6⟩ := hagree c
    rw [a0, a1, a2, a3, a4, a5, a6]
    exact congrArg₂ (fun f g => Cert.GcnSpec.gcn f g _ _ _ _ _) (funext fun h => agg1_eq _ _ h) (funext fun h => agg2_eq _ _ h)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
